-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S32x32 .f32) (main_arg3 : FVec F S32 .f32) (main_arg4 : FVec F S32x16 .f32) (main_arg5 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S20000x32 : Shape := ⟨2, ![20000, 32]⟩
abbrev S1700000x32 : Shape := ⟨2, ![1700000, 32]⟩
abbrev S10000x32 : Shape := ⟨2, ![10000, 32]⟩
abbrev S10000x1 : Shape := ⟨2, ![10000, 1]⟩
abbrev S1x32 : Shape := ⟨2, ![1, 32]⟩
abbrev S100000x16 : Shape := ⟨2, ![100000, 16]⟩
abbrev S20000x16 : Shape := ⟨2, ![20000, 16]⟩
abbrev S1700000x16 : Shape := ⟨2, ![1700000, 16]⟩
abbrev S10000x16 : Shape := ⟨2, ![10000, 16]⟩
abbrev S1x16 : Shape := ⟨2, ![1, 16]⟩
abbrev S5000x16 : Shape := ⟨2, ![5000, 16]⟩
abbrev S5000 : Shape := ⟨1, ![5000]⟩
abbrev S5000x1 : Shape := ⟨2, ![5000, 1]⟩

abbrev nBuf : Space → Nat
  | .hbm => 81
  | .vmem => 34
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S1700000x1, .f32⟩
  | .hbm, ⟨46, _⟩ => ⟨S100000x32, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x32, .f32⟩
  | .hbm, ⟨56, _⟩ => ⟨S1700000x32, .f32⟩
  | .hbm, ⟨57, _⟩ => ⟨S_, .f32⟩
  | .hbm, ⟨58, _⟩ => ⟨S100000x32, .f32⟩
  | .hbm, ⟨59, _⟩ => ⟨S1700000x1, .i32⟩
  | .hbm, ⟨60, _⟩ => ⟨S100000x32, .f32⟩
  | .hbm, ⟨61, _⟩ => ⟨S1x32, .f32⟩
  | .hbm, ⟨62, _⟩ => ⟨S100000x32, .f32⟩
  | .hbm, ⟨63, _⟩ => ⟨S100000x16, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x16, .f32⟩
  | .hbm, ⟨73, _⟩ => ⟨S1700000x16, .f32⟩
  | .hbm, ⟨74, _⟩ => ⟨S_, .f32⟩
  | .hbm, ⟨75, _⟩ => ⟨S100000x16, .f32⟩
  | .hbm, ⟨76, _⟩ => ⟨S1700000x1, .i32⟩
  | .hbm, ⟨77, _⟩ => ⟨S100000x16, .f32⟩
  | .hbm, ⟨78, _⟩ => ⟨S1x16, .f32⟩
  | .hbm, ⟨79, _⟩ => ⟨S100000x16, .f32⟩
  | .hbm, ⟨80, _⟩ => ⟨S100000x16, .f32⟩
  | .local _ .vmem, ⟨0, _⟩ => ⟨S20000x32, .f32⟩
  | .local _ .vmem, ⟨1, _⟩ => ⟨S20000x32, .f32⟩
  | .local _ .vmem, ⟨2, _⟩ => ⟨S32x32, .f32⟩
  | .local _ .vmem, ⟨3, _⟩ => ⟨S20000x32, .f32⟩
  | .local _ .vmem, ⟨4, _⟩ => ⟨S20000x32, .f32⟩
  | .local _ .vmem, ⟨5, _⟩ => ⟨S10000x32, .f32⟩
  | .local _ .vmem, ⟨6, _⟩ => ⟨S10000x32, .f32⟩
  | .local _ .vmem, ⟨7, _⟩ => ⟨S10000x1, .f32⟩
  | .local _ .vmem, ⟨8, _⟩ => ⟨S10000x1, .f32⟩
  | .local _ .vmem, ⟨9, _⟩ => ⟨S10000x32, .f32⟩
  | .local _ .vmem, ⟨10, _⟩ => ⟨S10000x32, .f32⟩
  | .local _ .vmem, ⟨11, _⟩ => ⟨S20000x32, .f32⟩
  | .local _ .vmem, ⟨12, _⟩ => ⟨S20000x32, .f32⟩
  | .local _ .vmem, ⟨13, _⟩ => ⟨S1x32, .f32⟩
  | .local _ .vmem, ⟨14, _⟩ => ⟨S20000x32, .f32⟩
  | .local _ .vmem, ⟨15, _⟩ => ⟨S20000x32, .f32⟩
  | .local _ .vmem, ⟨16, _⟩ => ⟨S20000x32, .f32⟩
  | .local _ .vmem, ⟨17, _⟩ => ⟨S20000x32, .f32⟩
  | .local _ .vmem, ⟨18, _⟩ => ⟨S32x16, .f32⟩
  | .local _ .vmem, ⟨19, _⟩ => ⟨S20000x16, .f32⟩
  | .local _ .vmem, ⟨20, _⟩ => ⟨S20000x16, .f32⟩
  | .local _ .vmem, ⟨21, _⟩ => ⟨S10000x16, .f32⟩
  | .local _ .vmem, ⟨22, _⟩ => ⟨S10000x16, .f32⟩
  | .local _ .vmem, ⟨23, _⟩ => ⟨S10000x1, .f32⟩
  | .local _ .vmem, ⟨24, _⟩ => ⟨S10000x1, .f32⟩
  | .local _ .vmem, ⟨25, _⟩ => ⟨S10000x16, .f32⟩
  | .local _ .vmem, ⟨26, _⟩ => ⟨S10000x16, .f32⟩
  | .local _ .vmem, ⟨27, _⟩ => ⟨S5000x16, .f32⟩
  | .local _ .vmem, ⟨28, _⟩ => ⟨S5000x16, .f32⟩
  | .local _ .vmem, ⟨29, _⟩ => ⟨S1x16, .f32⟩
  | .local _ .vmem, ⟨30, _⟩ => ⟨S5000x16, .f32⟩
  | .local _ .vmem, ⟨31, _⟩ => ⟨S5000x16, .f32⟩
  | .local _ .vmem, ⟨32, _⟩ => ⟨S5000x16, .f32⟩
  | .local _ .vmem, ⟨33, _⟩ => ⟨S5000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58_0 : Ref sig .tc := ⟨.hbm, 79, rfl⟩
abbrev main_v58_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc5_stg3_0 : Ref sig .tc := ⟨.vmem, 32, rfl⟩
abbrev cc5_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc5_sem3_0 : DmaSem sig := 32
abbrev cc5_sem3_1 : DmaSem sig := 33

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S20000x32_S20000x32_0_0 : ∀ a, (![0, 0] : Fin 2 → Nat) a + S20000x32.size a ≤ S20000x32.size a
  h_S20000x32 : 0 < S20000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  bcast_S_S100000x32 : S_.BroadcastsInDim S100000x32 (![] : Fin 0 → Fin S100000x32.rank)
  shapeCasts_S32_S1x32 : S32.ShapeCasts S1x32
  shapeCasts_S20000x32_S20000x32 : S20000x32.ShapeCasts S20000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S20000x32 : S1x32.Broadcasts S20000x32
  inb_S32x16_S32x16_0_0 : ∀ a, (![0, 0] : Fin 2 → Nat) a + S32x16.size a ≤ S32x16.size a
  h_S32x16 : 0 < S32x16.numel
  inb_S20000x16_S20000x16_0_0 : ∀ a, (![0, 0] : Fin 2 → Nat) a + S20000x16.size a ≤ S20000x16.size a
  h_S20000x16 : 0 < S20000x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  broadcasts_S10000x1_S10000x16 : S10000x1.Broadcasts S10000x16
  bcast_S_S100000x16 : S_.BroadcastsInDim S100000x16 (![] : Fin 0 → Fin S100000x16.rank)
  shapeCasts_S16_S1x16 : S16.ShapeCasts S1x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S20000x32_S32x32_S20000x32_1_0_0_1_n_n_wf : DotDims.WF S20000x32 S32x32 S20000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S20000x32_S32x16_S20000x16_1_0_0_1_n_n_wf : DotDims.WF S20000x32 S32x16 S20000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x32.size a ≤ S100000x32.size a
  hwx0_0 : ∀ i : grid0.Coords, EltTy.bits .f32 = 32 ∨ (Rect.block (s := S100000x32) S20000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x32.size a ≤ S100000x32.size a
  hwx0_2 : ∀ i : grid0.Coords, EltTy.bits .f32 = 32 ∨ (Rect.block (s := S100000x32) S20000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S1700000x32.size a
  hwx1_0 : ∀ i : grid1.Coords, EltTy.bits .f32 = 32 ∨ (Rect.block (s := S1700000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S1700000x32.size a
  hwx1_2 : ∀ i : grid1.Coords, EltTy.bits .f32 = 32 ∨ (Rect.block (s := S1700000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x32.size a ≤ S100000x32.size a
  hwx2_0 : ∀ i : grid2.Coords, EltTy.bits .f32 = 32 ∨ (Rect.block (s := S100000x32) S20000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x32.size a ≤ S100000x32.size a
  hwx2_2 : ∀ i : grid2.Coords, EltTy.bits .f32 = 32 ∨ (Rect.block (s := S100000x32) S20000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x32.size a ≤ S100000x32.size a
  hwx3_0 : ∀ i : grid3.Coords, EltTy.bits .f32 = 32 ∨ (Rect.block (s := S100000x32) S20000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x16.size a ≤ S32x16.size a
  hwx3_1 : ∀ i : grid3.Coords, EltTy.bits .f32 = 32 ∨ (Rect.block (s := S32x16) S32x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x16.size a ≤ S100000x16.size a
  hwx3_2 : ∀ i : grid3.Coords, EltTy.bits .f32 = 32 ∨ (Rect.block (s := S100000x16) S20000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S1700000x16.size a
  hwx4_0 : ∀ i : grid4.Coords, EltTy.bits .f32 = 32 ∨ (Rect.block (s := S1700000x16) S10000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S1700000x16.size a
  hwx4_2 : ∀ i : grid4.Coords, EltTy.bits .f32 = 32 ∨ (Rect.block (s := S1700000x16) S10000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S100000x16.size a
  hwx5_2 : ∀ i : grid5.Coords, EltTy.bits .f32 = 32 ∨ (Rect.block (s := S100000x16) S5000x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x16.size a ≤ S100000x16.size a
  hwx5_3 : ∀ i : grid5.Coords, EltTy.bits .f32 = 32 ∨ (Rect.block (s := S100000x16) S5000x16.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S20000x32_S32x16_S20000x16_1_0_0_1_n_n : DotDims S20000x32 S32x16 S20000x16 where
  lhsContracting := [1]
  rhsContracting := [0]
  lhsNonContracting := [0]
  rhsNonContracting := [1]
  lhsBatch := []
  rhsBatch := []
  wf := dot_S20000x32_S32x16_S20000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S20000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S20000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S20000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S20000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S20000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S32x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S20000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S10000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58_0) S5000x16.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v58_1) S5000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 133
  | .vmem => 0
  | .smem => 0
  | _ => 0

abbrev hbmTy0_0 (i : Nat) : BufTy := match i % 128 with
  | 0 => ⟨S100000x32, .f32⟩
  | 1 => ⟨S2x1600000, .i32⟩
  | 2 => ⟨S32x32, .f32⟩
  | 3 => ⟨S32, .f32⟩
  | 4 => ⟨S32x16, .f32⟩
  | 5 => ⟨S16, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x32, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x32, .f32⟩
  | 55 => ⟨S1700000x1, .f32⟩
  | 56 => ⟨S1700000x32, .f32⟩
  | 57 => ⟨S1700000x32, .f32⟩
  | 58 => ⟨S_, .f32⟩
  | 59 => ⟨S100000x32, .f32⟩
  | 60 => ⟨S1700000x1, .i32⟩
  | 61 => ⟨S100000x32, .f32⟩
  | 62 => ⟨S1x32, .f32⟩
  | 63 => ⟨S100000x32, .f32⟩
  | 64 => ⟨S100000x32, .f32⟩
  | 65 => ⟨S100000x32, .f32⟩
  | 66 => ⟨S100000x16, .f32⟩
  | 67 => ⟨S_, .f32⟩
  | 68 => ⟨S1700000, .f32⟩
  | 69 => ⟨S_, .f32⟩
  | 70 => ⟨S100000, .f32⟩
  | 71 => ⟨S1700000x1, .i32⟩
  | 72 => ⟨S100000, .f32⟩
  | 73 => ⟨S_, .f32⟩
  | 74 => ⟨S100000, .f32⟩
  | 75 => ⟨S100000, .i1⟩
  | 76 => ⟨S100000, .f32⟩
  | 77 => ⟨S_, .f32⟩
  | 78 => ⟨S100000, .f32⟩
  | 79 => ⟨S100000, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x16, .f32⟩
  | 108 => ⟨S1700000x1, .f32⟩
  | 109 => ⟨S1700000x16, .f32⟩
  | 110 => ⟨S1700000x16, .f32⟩
  | 111 => ⟨S_, .f32⟩
  | 112 => ⟨S100000x16, .f32⟩
  | 113 => ⟨S1700000x1, .i32⟩
  | 114 => ⟨S100000x16, .f32⟩
  | 115 => ⟨S1x16, .f32⟩
  | 116 => ⟨S100000x16, .f32⟩
  | 117 => ⟨S100000x16, .f32⟩
  | 118 => ⟨S_, .f32⟩
  | 119 => ⟨S100000, .f32⟩
  | 120 => ⟨S_, .f32⟩
  | 121 => ⟨S100000, .f32⟩
  | 122 => ⟨S100000, .f32⟩
  | 123 => ⟨S100000x1, .f32⟩
  | 124 => ⟨S100000x16, .f32⟩
  | 125 => ⟨S100000x16, .f32⟩
  | 126 => ⟨S100000x16, .f32⟩
  | 127 => ⟨S_, .f32⟩
  | _ => ⟨S100000x32, .f32⟩

abbrev hbmTy0_1 (i : Nat) : BufTy := match i % 128 with
  | 0 => ⟨S100000, .f32⟩
  | 1 => ⟨S100000x1, .f32⟩
  | 2 => ⟨S100000x1, .f32⟩
  | 3 => ⟨S100000x16, .f32⟩
  | 4 => ⟨S100000x16, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_call1_v0 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_c_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_15 : Ref sig .tc := ⟨.hbm, 89, rfl⟩
abbrev main_v64 : Ref sig .tc := ⟨.hbm, 90, rfl⟩
abbrev main_v65 : Ref sig .tc := ⟨.hbm, 91, rfl⟩
abbrev main_c_16 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_17 : Ref sig .tc := ⟨.hbm, 99, rfl⟩
abbrev main_v72 : Ref sig .tc := ⟨.hbm, 100, rfl⟩
abbrev main_v73 : Ref sig .tc := ⟨.hbm, 101, rfl⟩
abbrev main_c_18 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_19 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_call2_cst : Ref sig .tc := ⟨.hbm, 118, rfl⟩
abbrev main_call2_v0 : Ref sig .tc := ⟨.hbm, 119, rfl⟩
abbrev main_call2_cst_0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_cst_1 : Ref sig .tc := ⟨.hbm, 127, rfl⟩
abbrev main_call2_v7 : Ref sig .tc := ⟨.hbm, 128, rfl⟩
abbrev main_call2_v8 : Ref sig .tc := ⟨.hbm, 129, rfl⟩
abbrev main_call2_v9 : Ref sig .tc := ⟨.hbm, 130, rfl⟩
abbrev main_call2_v10 : Ref sig .tc := ⟨.hbm, 131, rfl⟩
abbrev main_v88 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x32_S32x32_S100000x32_1_0_0_1_n_n_wf : DotDims.WF S100000x32 S32x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«181030_j27762668601494_2_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.R0.lean ====
/-
  Region 0: a block of rows times a weight.

  The grid has five points; point t multiplies rows 20000·t … 20000·t + 19999 of the [100000, 32] input by the whole
  [32, 32] weight (both rounded to bf16 on the way in, which changes nothing on the extended reals) into a zero
  accumulator, and writes the product back as the same rows of the result.  Entry (r, c) of every block is the sum
  over the shared axis of input (r, ·) times weight (·, c), which is also entry (r, c) of the whole-array product;
  the five blocks tile the result, so the result array ends at the whole-array product of the two input arrays.
-/
import proofs.«181030_j27762668601494_2_alg».proof.Proof.Gen.KernelIdeal.Frame
import proofs.«181030_j27762668601494_2_alg».proof.Proof.LibRowOps
import proofs.«181030_j27762668601494_2_alg».proof.Proof.LibHostRowOps
import proofs.«181030_j27762668601494_2_alg».proof.Proof.LibRowColOps
import Idealize.ShloMosaic.Lib.Pipeline.Value
import Idealize.ShloMosaic.Lib.ValueIdx
import Idealize.ShloMosaic.Lib.IdealHost

set_option maxRecDepth 16384

noncomputable section

namespace Cert.KernelIdeal.Hand.R0

open Cert.KernelIdeal Cert.KernelIdeal.Gen
open Idealize.ShloMosaic Idealize.ShloMosaic.TcCoe Idealize.ShloMosaic.ValueIdx Idealize.SL.Sem
open Idealize.ShloMosaic.Pipeline (Dat)

-- the buffer contents when the region is entered: every statement below holds for any
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block index is the point, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem plain : RowOps.IsPlain dot_S20000x32_S32x32_S20000x32_1_0_0_1_n_n := ⟨rfl, rfl, rfl, rfl, rfl, rfl⟩

/-- The body's product at (p, q): the sum over the shared axis. -/
theorem pay_apply (x : Vec Ideal S20000x32 .f32) (w : Vec Ideal S32x32 .f32) (p : Fin 20000) (q : Fin 32) :
    k0_pay1 x w (ix2 p q) = ∑ k : Fin 32, x (ix2 p k) * w (ix2 k q) := by
  unfold k0_pay1
  exact RowOps.matmul_zero_apply plain none _ _ p q

/-- The whole-array product, in the host's spelling. -/
abbrev G (d : DotDims S100000x32 S32x32 S100000x32) (x : FVec Ideal S100000x32 .f32) (w : FVec Ideal S32x32 .f32) :
    FVec Ideal S100000x32 .f32 := Host.dotGeneral (F := Ideal) d none x w

/-- What point t writes back is block t of the whole-array product of the input arrays as the region found them. -/
theorem flushed_eq (d : DotDims S100000x32 S32x32 S100000x32) (hd : RowOps.IsPlain d) (c : Dev nD) (t : Fin cfg0.N) :
    (dat0 V c).flushed 2 t = ((cfg0.win 2).blk t).view.read (Elt Ideal) (G d (V c main_arg0) (V c main_arg2)) := by
  show (cfg0.win 2).cut (grid0.coords t) ((dat0 V c).after 2 t) = _
  rw [after0_2]
  unfold out0_2
  rw [View.canon_unit_zero hz]
  simp only [View.ld_unit_zero (S := S20000x32) hz, View.ld_unit_zero (S := S32x32) hz]
  funext j
  obtain ⟨p, q, rfl⟩ : ∃ (p : Fin 20000) (q : Fin 32), j = ix2 p q := ⟨j 0, j 1, eq_ix2 j⟩
  show k0_pay1 (iblk0 V c 0 t) (iblk0 V c 1 t) (ix2 p q) = G d (V c main_arg0) (V c main_arg2) (((cfg0.win 2).blk t).view.emb (ix2 p q))
  refine (pay_apply (iblk0 V c 0 t) (iblk0 V c 1 t) p q).trans ?_
  obtain ⟨e00, e01, e10, e11, e20, e21⟩ := idx_facts t
  have hp : p.val < 20000 := p.isLt
  have hq : q.val < 32 := q.isLt
  generalize hi : ((cfg0.win 2).blk t).view.emb (ix2 p q) = i
  have i0 : (i 0).val = t.val * 20000 + p.val := by
    rw [← hi]; show win0_2.index t (0 : Fin 2) * 20000 + 1 * p.val = _; rw [e20]; omega
  have i1 : (i 1).val = q.val := by
    rw [← hi]; show win0_2.index t (1 : Fin 2) * 32 + 1 * q.val = _; rw [e21]; omega
  rw [show i = ix2 (i 0) (i 1) from eq_ix2 i]
  refine Eq.trans ?_ (HostRowOps.dot_apply hd none (V c main_arg0) (V c main_arg2) (i 0) (i 1)).symm
  refine Finset.sum_congr rfl fun k _ => ?_
  have hk : k.val < 32 := k.isLt
  have ha : iblk0 V c 0 t (ix2 p k) = V c main_arg0 (ix2 (i 0) k) := by
    show V c main_arg0 (((cfg0.win 0).blk t).view.emb (ix2 p k)) = _
    refine congrArg (V c main_arg0) (funext fun a => Fin.ext ?_)
    match a with
    | ⟨0, _⟩ => show win0_0.index t (0 : Fin 2) * 20000 + 1 * p.val = (i 0).val; rw [e00, i0]; omega
    | ⟨1, _⟩ => show win0_0.index t (1 : Fin 2) * 32 + 1 * k.val = k.val; rw [e01]; omega
  have hb : iblk0 V c 1 t (ix2 k q) = V c main_arg2 (ix2 k (i 1)) := by
    show V c main_arg2 (((cfg0.win 1).blk t).view.emb (ix2 k q)) = _
    refine congrArg (V c main_arg2) (funext fun a => Fin.ext ?_)
    match a with
    | ⟨0, _⟩ => show win0_1.index t (0 : Fin 2) * 32 + 1 * k.val = k.val; rw [e10]; omega
    | ⟨1, _⟩ => show win0_1.index t (1 : Fin 2) * 32 + 1 * q.val = (i 1).val; rw [e11, i1]; omega
  rw [ha, hb]

/-- An index of the result array is in point t's block iff each coordinate is in the block's range on its axis. -/
theorem mem_blk (t : Fin cfg0.N) (i : S100000x32.Idx) :
    i ∈ ((cfg0.win 2).blk t).view.set ↔ ∀ a : Fin 2, win0_2.index t a * S20000x32.size a ≤ (i a).val ∧ (i a).val < win0_2.index t a * S20000x32.size a + S20000x32.size a := by
  show i ∈ ((View.whole main_v31).slice (win0_2.rect t)).set ↔ _
  rw [View.set_slice_whole, Rect.mem_set_unit]
  exact Iff.rfl

/-- The result array after the region: the whole-array product of the two input arrays as the region found them
    (row r lies in the block of point r / 20000). -/
theorem arr (d : DotDims S100000x32 S32x32 S100000x32) (hd : RowOps.IsPlain d) (c : Dev nD) :
    (dat0 V c).arrAt 2 cfg0.N = G d (V c main_arg0) (V c main_arg2) :=
  (dat0 V c).arrAt_eq_of_cover 2 (G d (V c main_arg0) (V c main_arg2)) (fun t _ => flushed_eq V d hd c t) fun i => by
    have hi0 : (i 0).val < 100000 := (i 0).isLt
    have hi1 : (i 1).val < 32 := (i 1).isLt
    have hN : cfg0.N = 5 := N_0
    have ht : (i 0).val / 20000 < cfg0.N := by rw [hN]; omega
    refine ⟨⟨(i 0).val / 20000, ht⟩, flush0_2 _, ?_⟩
    rw [mem_blk]
    obtain ⟨-, -, -, -, e20, e21⟩ := idx_facts ⟨(i 0).val / 20000, ht⟩
    intro a
    match a with
    | ⟨0, _⟩ =>
      show win0_2.index ⟨(i 0).val / 20000, ht⟩ (0 : Fin 2) * 20000 ≤ (i 0).val ∧ (i 0).val < win0_2.index ⟨(i 0).val / 20000, ht⟩ (0 : Fin 2) * 20000 + 20000
      rw [e20]; show (i 0).val / 20000 * 20000 ≤ (i 0).val ∧ (i 0).val < (i 0).val / 20000 * 20000 + 20000; omega
    | ⟨1, _⟩ =>
      show win0_2.index ⟨(i 0).val / 20000, ht⟩ (1 : Fin 2) * 32 ≤ (i 1).val ∧ (i 1).val < win0_2.index ⟨(i 0).val / 20000, ht⟩ (1 : Fin 2) * 32 + 32
      rw [e21]; omega

/-- The two input arrays end as the region found them. -/
theorem arr_in (c : Dev nD) (w : Fin cfg0.W) (hw : w ≠ 2) : (dat0 V c).arrAt w cfg0.N = V c (Pipeline.arrRef spec0 w) :=
  match w, hw with
  | ⟨0, _⟩, _ => ((dat0 V c).arrAt_in 0 rfl _).trans (A_eq0 V c 0)
  | ⟨1, _⟩, _ => ((dat0 V c).arrAt_in 1 rfl _).trans (A_eq0 V c 1)
  | ⟨2, _⟩, h => absurd rfl h

end Cert.KernelIdeal.Hand.R0

end
-- ==== Proof.R1.lean ====
/-
  Region 1: every edge's message scaled by the edge's coefficient.

  The grid has 170 points; point t takes rows 10000·t … 10000·t + 9999 of the [1700000, 32] array of gathered rows and
  the same rows of the [1700000, 1] column of coefficients, repeats the column along the 32 features, multiplies, and
  writes the product back as the same rows of the result.  Entry (e, f) of every block is message (e, f) times
  coefficient (e, 0), which is also entry (e, f) of the whole-array product with the column repeated; the 170 blocks
  tile the result, so the result array ends at that whole-array product of the two input arrays.
-/
import proofs.«181030_j27762668601494_2_alg».proof.Proof.Gen.KernelIdeal.Frame
import proofs.«181030_j27762668601494_2_alg».proof.Proof.LibRowOps
import proofs.«181030_j27762668601494_2_alg».proof.Proof.LibHostRowOps
import proofs.«181030_j27762668601494_2_alg».proof.Proof.LibRowColOps
import Idealize.ShloMosaic.Lib.Pipeline.Value
import Idealize.ShloMosaic.Lib.ValueIdx
import Idealize.ShloMosaic.Lib.IdealHost

set_option maxRecDepth 16384

noncomputable section

namespace Cert.KernelIdeal.Hand.R1

open Cert.KernelIdeal Cert.KernelIdeal.Gen
open Idealize.ShloMosaic Idealize.ShloMosaic.TcCoe Idealize.ShloMosaic.ValueIdx Idealize.SL.Sem
open Idealize.ShloMosaic.Pipeline (Dat)

-- the buffer contents when the region is entered: every statement below holds for any
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block index is the point, the column-block index zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's product at (p, q): the message times the row's coefficient. -/
theorem pay_apply (x : Vec Ideal S10000x32 .f32) (cc : Vec Ideal S10000x1 .f32) (p : Fin 10000) (q : Fin 32) :
    k1_pay1 x cc (ix2 p q) = x (ix2 p q) * cc (ix2 p (0 : Fin 1)) := by
  unfold k1_pay1
  show shapeCast S10000x32 x _ (ix2 p q) * broadcastTo S10000x32 (shapeCast S10000x1 cc _) _ (ix2 p q) = _
  rw [RowOps.spread_apply, shapeCast_self, shapeCast_self]

theorem hb : S1700000x1.BroadcastsInDim S1700000x32 ![0, 1] := by decide

/-- The whole-array scaling, in the host's spelling: the column repeated along the features, then the product. -/
abbrev G (g : FVec Ideal S1700000x32 .f32) (cc : FVec Ideal S1700000x1 .f32) : FVec Ideal S1700000x32 .f32 :=
  mulf g (broadcastInDim S1700000x32 ![0, 1] hb cc)

theorem G_apply (g : FVec Ideal S1700000x32 .f32) (cc : FVec Ideal S1700000x1 .f32) (r : Fin 1700000) (s : Fin 32) :
    G g cc (ix2 r s) = g (ix2 r s) * cc (ix2 r (0 : Fin 1)) := by
  show g (ix2 r s) * broadcastInDim S1700000x32 ![0, 1] hb cc (ix2 r s) = _
  rw [HostRowOps.colToMat_apply]

/-- What point t writes back is block t of the whole-array scaling of the input arrays as the region found them. -/
theorem flushed_eq (c : Dev nD) (t : Fin cfg1.N) :
    (dat1 V c).flushed 2 t = ((cfg1.win 2).blk t).view.read (Elt Ideal) (G (V c main_v38) (V c main_v30)) := by
  show (cfg1.win 2).cut (grid1.coords t) ((dat1 V c).after 2 t) = _
  rw [after1_2]
  unfold out1_2
  rw [View.canon_unit_zero hz]
  simp only [View.ld_unit_zero (S := S10000x32) hz, View.ld_unit_zero (S := S10000x1) hz]
  funext j
  obtain ⟨p, q, rfl⟩ : ∃ (p : Fin 10000) (q : Fin 32), j = ix2 p q := ⟨j 0, j 1, eq_ix2 j⟩
  show k1_pay1 (iblk1 V c 0 t) (iblk1 V c 1 t) (ix2 p q) = G (V c main_v38) (V c main_v30) (((cfg1.win 2).blk t).view.emb (ix2 p q))
  refine (pay_apply (iblk1 V c 0 t) (iblk1 V c 1 t) p q).trans ?_
  obtain ⟨e00, e01, e10, e11, e20, e21⟩ := idx_facts t
  have hp : p.val < 10000 := p.isLt
  have hq : q.val < 32 := q.isLt
  generalize hi : ((cfg1.win 2).blk t).view.emb (ix2 p q) = i
  have i0 : (i 0).val = t.val * 10000 + p.val := by
    rw [← hi]; show win1_2.index t (0 : Fin 2) * 10000 + 1 * p.val = _; rw [e20]; omega
  have i1 : (i 1).val = q.val := by
    rw [← hi]; show win1_2.index t (1 : Fin 2) * 32 + 1 * q.val = _; rw [e21]; omega
  rw [show i = ix2 (i 0) (i 1) from eq_ix2 i]
  refine Eq.trans ?_ (G_apply (V c main_v38) (V c main_v30) (i 0) (i 1)).symm
  have ha : iblk1 V c 0 t (ix2 p q) = V c main_v38 (ix2 (i 0) (i 1)) := by
    show V c main_v38 (((cfg1.win 0).blk t).view.emb (ix2 p q)) = _
    refine congrArg (V c main_v38) (funext fun a => Fin.ext ?_)
    match a with
    | ⟨0, _⟩ => show win1_0.index t (0 : Fin 2) * 10000 + 1 * p.val = (i 0).val; rw [e00, i0]; omega
    | ⟨1, _⟩ => show win1_0.index t (1 : Fin 2) * 32 + 1 * q.val = (i 1).val; rw [e01, i1]; omega
  have hc : iblk1 V c 1 t (ix2 p (0 : Fin 1)) = V c main_v30 (ix2 (i 0) (0 : Fin 1)) := by
    show V c main_v30 (((cfg1.win 1).blk t).view.emb (ix2 p (0 : Fin 1))) = _
    refine congrArg (V c main_v30) (funext fun a => Fin.ext ?_)
    match a with
    | ⟨0, _⟩ => show win1_1.index t (0 : Fin 2) * 10000 + 1 * p.val = (i 0).val; rw [e10, i0]; omega
    | ⟨1, _⟩ => show win1_1.index t (1 : Fin 2) * 1 + 1 * 0 = 0; rw [e11]
  rw [ha, hc]

/-- An index of the result array is in point t's block iff each coordinate is in the block's range on its axis. -/
theorem mem_blk2 (t : Fin cfg1.N) (i : S1700000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v39).slice (win1_2.rect t)).set ↔ _
  rw [View.set_slice_whole, Rect.mem_set_unit]
  exact Iff.rfl

/-- Every index of the result array lies in the block of the point its row falls in. -/
theorem cover2 (i : S1700000x32.Idx) : ∃ t : Fin cfg1.N, (cfg1.win 2).flush t = true ∧ i ∈ ((cfg1.win 2).blk t).view.set := by
  have hi0 : (i 0).val < 1700000 := (i 0).isLt
  have hi1 : (i 1).val < 32 := (i 1).isLt
  have hN : cfg1.N = 170 := N_1
  have ht : (i 0).val / 10000 < cfg1.N := by rw [hN]; omega
  refine ⟨⟨(i 0).val / 10000, ht⟩, flush1_2 _, ?_⟩
  rw [mem_blk2]
  have e := idx_facts ⟨(i 0).val / 10000, ht⟩
  have e0 : win1_2.index ⟨(i 0).val / 10000, ht⟩ (0 : Fin 2) = (i 0).val / 10000 := e.2.2.2.2.1
  have e1 : win1_2.index ⟨(i 0).val / 10000, ht⟩ (1 : Fin 2) = 0 := e.2.2.2.2.2
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e0]; omega
  | ⟨1, _⟩ =>
    show win1_2.index ⟨(i 0).val / 10000, ht⟩ (1 : Fin 2) * 32 ≤ (i 1).val ∧ (i 1).val < win1_2.index ⟨(i 0).val / 10000, ht⟩ (1 : Fin 2) * 32 + 32
    rw [e1]; omega

/-- The result array after the region: the whole-array scaling of the two input arrays as the region found them. -/
theorem arr (c : Dev nD) : (dat1 V c).arrAt 2 cfg1.N = G (V c main_v38) (V c main_v30) :=
  (dat1 V c).arrAt_eq_of_cover 2 (G (V c main_v38) (V c main_v30)) (fun t _ => flushed_eq V c t) cover2

/-- The two input arrays end as the region found them. -/
theorem arr_in (c : Dev nD) (w : Fin cfg1.W) (hw : w ≠ 2) : (dat1 V c).arrAt w cfg1.N = V c (Pipeline.arrRef spec1 w) :=
  match w, hw with
  | ⟨0, _⟩, _ => ((dat1 V c).arrAt_in 0 rfl _).trans (A_eq1 V c 0)
  | ⟨1, _⟩, _ => ((dat1 V c).arrAt_in 1 rfl _).trans (A_eq1 V c 1)
  | ⟨2, _⟩, h => absurd rfl h

end Cert.KernelIdeal.Hand.R1

end
-- ==== Proof.R2.lean ====
/-
  Region 2: the first layer's bias and nonlinearity.

  The grid has five points; point t takes rows 20000·t … 20000·t + 19999 of the [100000, 32] aggregate and the whole
  [1, 32] bias row, repeats the row over the block's rows, adds, applies tanh, and writes the result back as the same
  rows.  Entry (r, c) of every block is tanh (aggregate (r, c) + bias (0, c)), which is also entry (r, c) of the
  whole-array expression with the row repeated over all rows; the five blocks tile the result, so the result array
  ends at that whole-array expression of the two input arrays.
-/
import proofs.«181030_j27762668601494_2_alg».proof.Proof.Gen.KernelIdeal.Frame
import proofs.«181030_j27762668601494_2_alg».proof.Proof.LibRowOps
import proofs.«181030_j27762668601494_2_alg».proof.Proof.LibHostRowOps
import proofs.«181030_j27762668601494_2_alg».proof.Proof.LibRowColOps
import Idealize.ShloMosaic.Lib.Pipeline.Value
import Idealize.ShloMosaic.Lib.ValueIdx
import Idealize.ShloMosaic.Lib.IdealHost

set_option maxRecDepth 16384

noncomputable section

namespace Cert.KernelIdeal.Hand.R2

open Cert.KernelIdeal Cert.KernelIdeal.Gen
open Idealize.ShloMosaic Idealize.ShloMosaic.TcCoe Idealize.ShloMosaic.ValueIdx Idealize.SL.Sem
open Idealize.ShloMosaic.Pipeline (Dat)

-- the buffer contents when the region is entered: every statement below holds for any
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block index is the point, every other block index zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at (p, q): tanh of the entry plus the bias of its column. -/
theorem pay_apply (x : Vec Ideal S20000x32 .f32) (br : Vec Ideal S1x32 .f32) (p : Fin 20000) (q : Fin 32) :
    k2_pay1 x br (ix2 p q) = Ideal.tanh (x (ix2 p q) + br (ix2 (0 : Fin 1) q)) := by
  unfold k2_pay1
  show Ideal.tanh (shapeCast S20000x32 x _ (ix2 p q) + broadcastTo S20000x32 (shapeCast S1x32 br _) _ (ix2 p q)) = _
  rw [RowColOps.rowSpread_apply, shapeCast_self, shapeCast_self]

theorem hb : S1x32.BroadcastsInDim S100000x32 ![0, 1] := by decide

/-- The whole-array expression, in the host's spelling: the row repeated over all rows, added, then tanh. -/
abbrev G (a : FVec Ideal S100000x32 .f32) (br : FVec Ideal S1x32 .f32) : FVec Ideal S100000x32 .f32 :=
  Host.tanh (addf a (broadcastInDim S100000x32 ![0, 1] hb br))

theorem G_apply (a : FVec Ideal S100000x32 .f32) (br : FVec Ideal S1x32 .f32) (r : Fin 100000) (s : Fin 32) :
    G a br (ix2 r s) = Ideal.tanh (a (ix2 r s) + br (ix2 (0 : Fin 1) s)) := by
  show Ideal.tanh (a (ix2 r s) + broadcastInDim S100000x32 ![0, 1] hb br (ix2 r s)) = _
  rw [HostRowOps.rowToMat_apply]

/-- What point t writes back is block t of the whole-array expression of the input arrays as the region found them. -/
theorem flushed_eq (c : Dev nD) (t : Fin cfg2.N) :
    (dat2 V c).flushed 2 t = ((cfg2.win 2).blk t).view.read (Elt Ideal) (G (V c main_v42) (V c main_v43)) := by
  show (cfg2.win 2).cut (grid2.coords t) ((dat2 V c).after 2 t) = _
  rw [after2_2]
  unfold out2_2
  rw [View.canon_unit_zero hz]
  simp only [View.ld_unit_zero (S := S20000x32) hz, View.ld_unit_zero (S := S1x32) hz]
  funext j
  obtain ⟨p, q, rfl⟩ : ∃ (p : Fin 20000) (q : Fin 32), j = ix2 p q := ⟨j 0, j 1, eq_ix2 j⟩
  show k2_pay1 (iblk2 V c 0 t) (iblk2 V c 1 t) (ix2 p q) = G (V c main_v42) (V c main_v43) (((cfg2.win 2).blk t).view.emb (ix2 p q))
  refine (pay_apply (iblk2 V c 0 t) (iblk2 V c 1 t) p q).trans ?_
  obtain ⟨e00, e01, e10, e11, e20, e21⟩ := idx_facts t
  have hp : p.val < 20000 := p.isLt
  have hq : q.val < 32 := q.isLt
  generalize hi : ((cfg2.win 2).blk t).view.emb (ix2 p q) = i
  have i0 : (i 0).val = t.val * 20000 + p.val := by
    rw [← hi]; show win2_2.index t (0 : Fin 2) * 20000 + 1 * p.val = _; rw [e20]; omega
  have i1 : (i 1).val = q.val := by
    rw [← hi]; show win2_2.index t (1 : Fin 2) * 32 + 1 * q.val = _; rw [e21]; omega
  rw [show i = ix2 (i 0) (i 1) from eq_ix2 i]
  refine Eq.trans ?_ (G_apply (V c main_v42) (V c main_v43) (i 0) (i 1)).symm
  have ha : iblk2 V c 0 t (ix2 p q) = V c main_v42 (ix2 (i 0) (i 1)) := by
    show V c main_v42 (((cfg2.win 0).blk t).view.emb (ix2 p q)) = _
    refine congrArg (V c main_v42) (funext fun a => Fin.ext ?_)
    match a with
    | ⟨0, _⟩ => show win2_0.index t (0 : Fin 2) * 20000 + 1 * p.val = (i 0).val; rw [e00, i0]; omega
    | ⟨1, _⟩ => show win2_0.index t (1 : Fin 2) * 32 + 1 * q.val = (i 1).val; rw [e01, i1]; omega
  have hc : iblk2 V c 1 t (ix2 (0 : Fin 1) q) = V c main_v43 (ix2 (0 : Fin 1) (i 1)) := by
    show V c main_v43 (((cfg2.win 1).blk t).view.emb (ix2 (0 : Fin 1) q)) = _
    refine congrArg (V c main_v43) (funext fun a => Fin.ext ?_)
    match a with
    | ⟨0, _⟩ => show win2_1.index t (0 : Fin 2) * 1 + 1 * 0 = 0; rw [e10]
    | ⟨1, _⟩ => show win2_1.index t (1 : Fin 2) * 32 + 1 * q.val = (i 1).val; rw [e11, i1]; omega
  rw [ha, hc]

/-- An index of the result array is in point t's block iff each coordinate is in the block's range on its axis. -/
theorem mem_blk2 (t : Fin cfg2.N) (i : S100000x32.Idx) :
    i ∈ ((cfg2.win 2).blk t).view.set ↔ ∀ a : Fin 2, win2_2.index t a * S20000x32.size a ≤ (i a).val ∧ (i a).val < win2_2.index t a * S20000x32.size a + S20000x32.size a := by
  show i ∈ ((View.whole main_v44).slice (win2_2.rect t)).set ↔ _
  rw [View.set_slice_whole, Rect.mem_set_unit]
  exact Iff.rfl

/-- Every index of the result array lies in the block of the point its row falls in. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 5 := N_2
  have ht : (i 0).val / 20000 < cfg2.N := by rw [hN]; omega
  refine ⟨⟨(i 0).val / 20000, ht⟩, flush2_2 _, ?_⟩
  rw [mem_blk2]
  have e := idx_facts ⟨(i 0).val / 20000, ht⟩
  have e0 : win2_2.index ⟨(i 0).val / 20000, ht⟩ (0 : Fin 2) = (i 0).val / 20000 := e.2.2.2.2.1
  have e1 : win2_2.index ⟨(i 0).val / 20000, ht⟩ (1 : Fin 2) = 0 := e.2.2.2.2.2
  intro a
  match a with
  | ⟨0, _⟩ =>
    show win2_2.index ⟨(i 0).val / 20000, ht⟩ (0 : Fin 2) * 20000 ≤ (i 0).val ∧ (i 0).val < win2_2.index ⟨(i 0).val / 20000, ht⟩ (0 : Fin 2) * 20000 + 20000
    rw [e0]; omega
  | ⟨1, _⟩ =>
    show win2_2.index ⟨(i 0).val / 20000, ht⟩ (1 : Fin 2) * 32 ≤ (i 1).val ∧ (i 1).val < win2_2.index ⟨(i 0).val / 20000, ht⟩ (1 : Fin 2) * 32 + 32
    rw [e1]; omega

/-- The result array after the region: the whole-array expression of the two input arrays as the region found them. -/
theorem arr (c : Dev nD) : (dat2 V c).arrAt 2 cfg2.N = G (V c main_v42) (V c main_v43) :=
  (dat2 V c).arrAt_eq_of_cover 2 (G (V c main_v42) (V c main_v43)) (fun t _ => flushed_eq V c t) cover2

/-- The two input arrays end as the region found them. -/
theorem arr_in (c : Dev nD) (w : Fin cfg2.W) (hw : w ≠ 2) : (dat2 V c).arrAt w cfg2.N = V c (Pipeline.arrRef spec2 w) :=
  match w, hw with
  | ⟨0, _⟩, _ => ((dat2 V c).arrAt_in 0 rfl _).trans (A_eq2 V c 0)
  | ⟨1, _⟩, _ => ((dat2 V c).arrAt_in 1 rfl _).trans (A_eq2 V c 1)
  | ⟨2, _⟩, h => absurd rfl h

end Cert.KernelIdeal.Hand.R2

end
-- ==== Proof.R3.lean ====
/-
  Region 3: a block of rows times a weight.

  The grid has five points; point t multiplies rows 20000·t … 20000·t + 19999 of the [100000, 32] input by the whole
  [32, 16] weight (both rounded to bf16 on the way in, which changes nothing on the extended reals) into a zero
  accumulator, and writes the product back as the same rows of the result.  Entry (r, c) of every block is the sum
  over the shared axis of input (r, ·) times weight (·, c), which is also entry (r, c) of the whole-array product;
  the five blocks tile the result, so the result array ends at the whole-array product of the two input arrays.
-/
import proofs.«181030_j27762668601494_2_alg».proof.Proof.Gen.KernelIdeal.Frame
import proofs.«181030_j27762668601494_2_alg».proof.Proof.LibRowOps
import proofs.«181030_j27762668601494_2_alg».proof.Proof.LibHostRowOps
import proofs.«181030_j27762668601494_2_alg».proof.Proof.LibRowColOps
import Idealize.ShloMosaic.Lib.Pipeline.Value
import Idealize.ShloMosaic.Lib.ValueIdx
import Idealize.ShloMosaic.Lib.IdealHost

set_option maxRecDepth 16384

noncomputable section

namespace Cert.KernelIdeal.Hand.R3

open Cert.KernelIdeal Cert.KernelIdeal.Gen
open Idealize.ShloMosaic Idealize.ShloMosaic.TcCoe Idealize.ShloMosaic.ValueIdx Idealize.SL.Sem
open Idealize.ShloMosaic.Pipeline (Dat)

-- the buffer contents when the region is entered: every statement below holds for any
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block index is the point, every other block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem plain : RowOps.IsPlain dot_S20000x32_S32x16_S20000x16_1_0_0_1_n_n := ⟨rfl, rfl, rfl, rfl, rfl, rfl⟩

/-- The body's product at (p, q): the sum over the shared axis. -/
theorem pay_apply (x : Vec Ideal S20000x32 .f32) (w : Vec Ideal S32x16 .f32) (p : Fin 20000) (q : Fin 16) :
    k3_pay1 x w (ix2 p q) = ∑ k : Fin 32, x (ix2 p k) * w (ix2 k q) := by
  unfold k3_pay1
  refine (RowOps.matmul_zero_apply plain none _ _ p q).trans ?_
  simp only [truncf_apply, shapeCast_self]

/-- The whole-array product, in the host's spelling. -/
abbrev G (d : DotDims S100000x32 S32x16 S100000x16) (x : FVec Ideal S100000x32 .f32) (w : FVec Ideal S32x16 .f32) :
    FVec Ideal S100000x16 .f32 := Host.dotGeneral (F := Ideal) d none x w

/-- What point t writes back is block t of the whole-array product of the input arrays as the region found them. -/
theorem flushed_eq (d : DotDims S100000x32 S32x16 S100000x16) (hd : RowOps.IsPlain d) (c : Dev nD) (t : Fin cfg3.N) :
    (dat3 V c).flushed 2 t = ((cfg3.win 2).blk t).view.read (Elt Ideal) (G d (V c main_v44) (V c main_arg4)) := by
  show (cfg3.win 2).cut (grid3.coords t) ((dat3 V c).after 2 t) = _
  rw [after3_2]
  unfold out3_2
  rw [View.canon_unit_zero hz]
  simp only [View.ld_unit_zero (S := S20000x32) hz, View.ld_unit_zero (S := S32x16) hz]
  funext j
  obtain ⟨p, q, rfl⟩ : ∃ (p : Fin 20000) (q : Fin 16), j = ix2 p q := ⟨j 0, j 1, eq_ix2 j⟩
  show k3_pay1 (iblk3 V c 0 t) (iblk3 V c 1 t) (ix2 p q) = G d (V c main_v44) (V c main_arg4) (((cfg3.win 2).blk t).view.emb (ix2 p q))
  refine (pay_apply (iblk3 V c 0 t) (iblk3 V c 1 t) p q).trans ?_
  obtain ⟨e00, e01, e10, e11, e20, e21⟩ := idx_facts t
  have hp : p.val < 20000 := p.isLt
  have hq : q.val < 16 := q.isLt
  generalize hi : ((cfg3.win 2).blk t).view.emb (ix2 p q) = i
  have i0 : (i 0).val = t.val * 20000 + p.val := by
    rw [← hi]; show win3_2.index t (0 : Fin 2) * 20000 + 1 * p.val = _; rw [e20]; omega
  have i1 : (i 1).val = q.val := by
    rw [← hi]; show win3_2.index t (1 : Fin 2) * 16 + 1 * q.val = _; rw [e21]; omega
  rw [show i = ix2 (i 0) (i 1) from eq_ix2 i]
  refine Eq.trans ?_ (HostRowOps.dot_apply hd none (V c main_v44) (V c main_arg4) (i 0) (i 1)).symm
  refine Finset.sum_congr rfl fun k _ => ?_
  have hk : k.val < 32 := k.isLt
  have ha : iblk3 V c 0 t (ix2 p k) = V c main_v44 (ix2 (i 0) k) := by
    show V c main_v44 (((cfg3.win 0).blk t).view.emb (ix2 p k)) = _
    refine congrArg (V c main_v44) (funext fun a => Fin.ext ?_)
    match a with
    | ⟨0, _⟩ => show win3_0.index t (0 : Fin 2) * 20000 + 1 * p.val = (i 0).val; rw [e00, i0]; omega
    | ⟨1, _⟩ => show win3_0.index t (1 : Fin 2) * 32 + 1 * k.val = k.val; rw [e01]; omega
  have hb : iblk3 V c 1 t (ix2 k q) = V c main_arg4 (ix2 k (i 1)) := by
    show V c main_arg4 (((cfg3.win 1).blk t).view.emb (ix2 k q)) = _
    refine congrArg (V c main_arg4) (funext fun a => Fin.ext ?_)
    match a with
    | ⟨0, _⟩ => show win3_1.index t (0 : Fin 2) * 32 + 1 * k.val = k.val; rw [e10]; omega
    | ⟨1, _⟩ => show win3_1.index t (1 : Fin 2) * 16 + 1 * q.val = (i 1).val; rw [e11, i1]; omega
  rw [ha, hb]

/-- An index of the result array is in point t's block iff each coordinate is in the block's range on its axis. -/
theorem mem_blk (t : Fin cfg3.N) (i : S100000x16.Idx) :
    i ∈ ((cfg3.win 2).blk t).view.set ↔ ∀ a : Fin 2, win3_2.index t a * S20000x16.size a ≤ (i a).val ∧ (i a).val < win3_2.index t a * S20000x16.size a + S20000x16.size a := by
  show i ∈ ((View.whole main_v45).slice (win3_2.rect t)).set ↔ _
  rw [View.set_slice_whole, Rect.mem_set_unit]
  exact Iff.rfl

/-- The result array after the region: the whole-array product of the two input arrays as the region found them
    (row r lies in the block of point r / 20000). -/
theorem arr (d : DotDims S100000x32 S32x16 S100000x16) (hd : RowOps.IsPlain d) (c : Dev nD) :
    (dat3 V c).arrAt 2 cfg3.N = G d (V c main_v44) (V c main_arg4) :=
  (dat3 V c).arrAt_eq_of_cover 2 (G d (V c main_v44) (V c main_arg4)) (fun t _ => flushed_eq V d hd c t) fun i => by
    have hi0 : (i 0).val < 100000 := (i 0).isLt
    have hi1 : (i 1).val < 16 := (i 1).isLt
    have hN : cfg3.N = 5 := N_3
    have ht : (i 0).val / 20000 < cfg3.N := by rw [hN]; omega
    refine ⟨⟨(i 0).val / 20000, ht⟩, flush3_2 _, ?_⟩
    rw [mem_blk]
    obtain ⟨-, -, -, -, e20, e21⟩ := idx_facts ⟨(i 0).val / 20000, ht⟩
    intro a
    match a with
    | ⟨0, _⟩ =>
      show win3_2.index ⟨(i 0).val / 20000, ht⟩ (0 : Fin 2) * 20000 ≤ (i 0).val ∧ (i 0).val < win3_2.index ⟨(i 0).val / 20000, ht⟩ (0 : Fin 2) * 20000 + 20000
      rw [e20]; show (i 0).val / 20000 * 20000 ≤ (i 0).val ∧ (i 0).val < (i 0).val / 20000 * 20000 + 20000; omega
    | ⟨1, _⟩ =>
      show win3_2.index ⟨(i 0).val / 20000, ht⟩ (1 : Fin 2) * 16 ≤ (i 1).val ∧ (i 1).val < win3_2.index ⟨(i 0).val / 20000, ht⟩ (1 : Fin 2) * 16 + 16
      rw [e21]; omega

/-- The two input arrays end as the region found them. -/
theorem arr_in (c : Dev nD) (w : Fin cfg3.W) (hw : w ≠ 2) : (dat3 V c).arrAt w cfg3.N = V c (Pipeline.arrRef spec3 w) :=
  match w, hw with
  | ⟨0, _⟩, _ => ((dat3 V c).arrAt_in 0 rfl _).trans (A_eq3 V c 0)
  | ⟨1, _⟩, _ => ((dat3 V c).arrAt_in 1 rfl _).trans (A_eq3 V c 1)
  | ⟨2, _⟩, h => absurd rfl h

end Cert.KernelIdeal.Hand.R3

end
-- ==== Proof.R4.lean ====
/-
  Region 4: every edge's message scaled by the edge's coefficient.

  The grid has 170 points; point t takes rows 10000·t … 10000·t + 9999 of the [1700000, 16] array of gathered rows and
  the same rows of the [1700000, 1] column of coefficients, repeats the column along the 16 features, multiplies, and
  writes the product back as the same rows of the result.  Entry (e, f) of every block is message (e, f) times
  coefficient (e, 0), which is also entry (e, f) of the whole-array product with the column repeated; the 170 blocks
  tile the result, so the result array ends at that whole-array product of the two input arrays.
-/
import proofs.«181030_j27762668601494_2_alg».proof.Proof.Gen.KernelIdeal.Frame
import proofs.«181030_j27762668601494_2_alg».proof.Proof.LibRowOps
import proofs.«181030_j27762668601494_2_alg».proof.Proof.LibHostRowOps
import proofs.«181030_j27762668601494_2_alg».proof.Proof.LibRowColOps
import Idealize.ShloMosaic.Lib.Pipeline.Value
import Idealize.ShloMosaic.Lib.ValueIdx
import Idealize.ShloMosaic.Lib.IdealHost

set_option maxRecDepth 16384

noncomputable section

namespace Cert.KernelIdeal.Hand.R4

open Cert.KernelIdeal Cert.KernelIdeal.Gen
open Idealize.ShloMosaic Idealize.ShloMosaic.TcCoe Idealize.ShloMosaic.ValueIdx Idealize.SL.Sem
open Idealize.ShloMosaic.Pipeline (Dat)

-- the buffer contents when the region is entered: every statement below holds for any
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block index is the point, the column-block index zero. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The body's product at (p, q): the message times the row's coefficient. -/
theorem pay_apply (x : Vec Ideal S10000x16 .f32) (cc : Vec Ideal S10000x1 .f32) (p : Fin 10000) (q : Fin 16) :
    k4_pay1 x cc (ix2 p q) = x (ix2 p q) * cc (ix2 p (0 : Fin 1)) := by
  unfold k4_pay1
  show shapeCast S10000x16 x _ (ix2 p q) * broadcastTo S10000x16 (shapeCast S10000x1 cc _) _ (ix2 p q) = _
  rw [RowOps.spread_apply, shapeCast_self, shapeCast_self]

theorem hb : S1700000x1.BroadcastsInDim S1700000x16 ![0, 1] := by decide

/-- The whole-array scaling, in the host's spelling: the column repeated along the features, then the product. -/
abbrev G (g : FVec Ideal S1700000x16 .f32) (cc : FVec Ideal S1700000x1 .f32) : FVec Ideal S1700000x16 .f32 :=
  mulf g (broadcastInDim S1700000x16 ![0, 1] hb cc)

theorem G_apply (g : FVec Ideal S1700000x16 .f32) (cc : FVec Ideal S1700000x1 .f32) (r : Fin 1700000) (s : Fin 16) :
    G g cc (ix2 r s) = g (ix2 r s) * cc (ix2 r (0 : Fin 1)) := by
  show g (ix2 r s) * broadcastInDim S1700000x16 ![0, 1] hb cc (ix2 r s) = _
  rw [HostRowOps.colToMat_apply]

/-- What point t writes back is block t of the whole-array scaling of the input arrays as the region found them. -/
theorem flushed_eq (c : Dev nD) (t : Fin cfg4.N) :
    (dat4 V c).flushed 2 t = ((cfg4.win 2).blk t).view.read (Elt Ideal) (G (V c main_v52) (V c main_v30)) := by
  show (cfg4.win 2).cut (grid4.coords t) ((dat4 V c).after 2 t) = _
  rw [after4_2]
  unfold out4_2
  rw [View.canon_unit_zero hz]
  simp only [View.ld_unit_zero (S := S10000x16) hz, View.ld_unit_zero (S := S10000x1) hz]
  funext j
  obtain ⟨p, q, rfl⟩ : ∃ (p : Fin 10000) (q : Fin 16), j = ix2 p q := ⟨j 0, j 1, eq_ix2 j⟩
  show k4_pay1 (iblk4 V c 0 t) (iblk4 V c 1 t) (ix2 p q) = G (V c main_v52) (V c main_v30) (((cfg4.win 2).blk t).view.emb (ix2 p q))
  refine (pay_apply (iblk4 V c 0 t) (iblk4 V c 1 t) p q).trans ?_
  obtain ⟨e00, e01, e10, e11, e20, e21⟩ := idx_facts t
  have hp : p.val < 10000 := p.isLt
  have hq : q.val < 16 := q.isLt
  generalize hi : ((cfg4.win 2).blk t).view.emb (ix2 p q) = i
  have i0 : (i 0).val = t.val * 10000 + p.val := by
    rw [← hi]; show win4_2.index t (0 : Fin 2) * 10000 + 1 * p.val = _; rw [e20]; omega
  have i1 : (i 1).val = q.val := by
    rw [← hi]; show win4_2.index t (1 : Fin 2) * 16 + 1 * q.val = _; rw [e21]; omega
  rw [show i = ix2 (i 0) (i 1) from eq_ix2 i]
  refine Eq.trans ?_ (G_apply (V c main_v52) (V c main_v30) (i 0) (i 1)).symm
  have ha : iblk4 V c 0 t (ix2 p q) = V c main_v52 (ix2 (i 0) (i 1)) := by
    show V c main_v52 (((cfg4.win 0).blk t).view.emb (ix2 p q)) = _
    refine congrArg (V c main_v52) (funext fun a => Fin.ext ?_)
    match a with
    | ⟨0, _⟩ => show win4_0.index t (0 : Fin 2) * 10000 + 1 * p.val = (i 0).val; rw [e00, i0]; omega
    | ⟨1, _⟩ => show win4_0.index t (1 : Fin 2) * 16 + 1 * q.val = (i 1).val; rw [e01, i1]; omega
  have hc : iblk4 V c 1 t (ix2 p (0 : Fin 1)) = V c main_v30 (ix2 (i 0) (0 : Fin 1)) := by
    show V c main_v30 (((cfg4.win 1).blk t).view.emb (ix2 p (0 : Fin 1))) = _
    refine congrArg (V c main_v30) (funext fun a => Fin.ext ?_)
    match a with
    | ⟨0, _⟩ => show win4_1.index t (0 : Fin 2) * 10000 + 1 * p.val = (i 0).val; rw [e10, i0]; omega
    | ⟨1, _⟩ => show win4_1.index t (1 : Fin 2) * 1 + 1 * 0 = 0; rw [e11]
  rw [ha, hc]

/-- An index of the result array is in point t's block iff each coordinate is in the block's range on its axis. -/
theorem mem_blk2 (t : Fin cfg4.N) (i : S1700000x16.Idx) :
    i ∈ ((cfg4.win 2).blk t).view.set ↔ ∀ a : Fin 2, win4_2.index t a * S10000x16.size a ≤ (i a).val ∧ (i a).val < win4_2.index t a * S10000x16.size a + S10000x16.size a := by
  show i ∈ ((View.whole main_v53).slice (win4_2.rect t)).set ↔ _
  rw [View.set_slice_whole, Rect.mem_set_unit]
  exact Iff.rfl

/-- Every index of the result array lies in the block of the point its row falls in. -/
theorem cover2 (i : S1700000x16.Idx) : ∃ t : Fin cfg4.N, (cfg4.win 2).flush t = true ∧ i ∈ ((cfg4.win 2).blk t).view.set := by
  have hi0 : (i 0).val < 1700000 := (i 0).isLt
  have hi1 : (i 1).val < 16 := (i 1).isLt
  have hN : cfg4.N = 170 := N_4
  have ht : (i 0).val / 10000 < cfg4.N := by rw [hN]; omega
  refine ⟨⟨(i 0).val / 10000, ht⟩, flush4_2 _, ?_⟩
  rw [mem_blk2]
  have e := idx_facts ⟨(i 0).val / 10000, ht⟩
  have e0 : win4_2.index ⟨(i 0).val / 10000, ht⟩ (0 : Fin 2) = (i 0).val / 10000 := e.2.2.2.2.1
  have e1 : win4_2.index ⟨(i 0).val / 10000, ht⟩ (1 : Fin 2) = 0 := e.2.2.2.2.2
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [e0]; omega
  | ⟨1, _⟩ =>
    show win4_2.index ⟨(i 0).val / 10000, ht⟩ (1 : Fin 2) * 16 ≤ (i 1).val ∧ (i 1).val < win4_2.index ⟨(i 0).val / 10000, ht⟩ (1 : Fin 2) * 16 + 16
    rw [e1]; omega

/-- The result array after the region: the whole-array scaling of the two input arrays as the region found them. -/
theorem arr (c : Dev nD) : (dat4 V c).arrAt 2 cfg4.N = G (V c main_v52) (V c main_v30) :=
  (dat4 V c).arrAt_eq_of_cover 2 (G (V c main_v52) (V c main_v30)) (fun t _ => flushed_eq V c t) cover2

/-- The two input arrays end as the region found them. -/
theorem arr_in (c : Dev nD) (w : Fin cfg4.W) (hw : w ≠ 2) : (dat4 V c).arrAt w cfg4.N = V c (Pipeline.arrRef spec4 w) :=
  match w, hw with
  | ⟨0, _⟩, _ => ((dat4 V c).arrAt_in 0 rfl _).trans (A_eq4 V c 0)
  | ⟨1, _⟩, _ => ((dat4 V c).arrAt_in 1 rfl _).trans (A_eq4 V c 1)
  | ⟨2, _⟩, h => absurd rfl h

end Cert.KernelIdeal.Hand.R4

end
-- ==== Proof.LibRowLogSoftmax.lean ====
/-
  A row-wise log-softmax of an [a, b] vector, read at one index on the extended reals.

  A kernel body that normalises the rows of an [a, b] vector L to log-probabilities takes the maximum m of each row
  (a reduction along the second axis, viewed as an [a, 1] column and repeated along the row), exponentiates L - m,
  sums each row, takes the logarithm of the sum, adds it to m, repeats that column along the row and subtracts it
  from L.  At (p, q) this is L(p, q) - (m_p + log Σ_k exp(L(p, k) - m_p)), where m_p is the fold of `max` over row p
  from the value of the starting word.  Every step only moves coordinates or acts entry by entry, so no entry has to
  be finite.
-/
import Idealize.ShloMosaic.PureOps.Ideal.Laws
import Idealize.ShloMosaic.Lib.ValueIdx
import Idealize.ShloMosaic.Lib.Pipeline.Value
import proofs.«181030_j27762668601494_2_alg».proof.Proof.LibRowOps

noncomputable section

namespace Cert.RowLogSoftmax

open Idealize.ShloMosaic Idealize.ShloMosaic.ValueIdx Cert.RowOps

variable {a b : Nat}

/-- The maximum of row p of L, folded from the value of the word the reduction starts from. -/
def rowMaxFrom (acc : BitVec (FTy.f32).bits) (L : FVec Ideal ⟨2, ![a, b]⟩ .f32) (p : Fin a) : EReal :=
  (Finset.univ : Finset (Fin b)).fold max (Ideal.ofBits .f32 acc) (fun k => L (ix2 p k))

theorem exp_apply {s : Shape} {φ : FTy} (x : FVec Ideal s φ) (i : s.Idx) : exp x i = Ideal.exp (x i) := rfl

theorem log_apply {s : Shape} {φ : FTy} (x : FVec Ideal s φ) (i : s.Idx) : log x i = Ideal.log (x i) := rfl

/-- The row maximum as an [a, 1] column repeated along the row reads, at (p, k), the maximum of row p. -/
theorem maxColumn_apply (L : FVec Ideal ⟨2, ![a, b]⟩ .f32) (accM : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (p : Fin a) (k : Fin b) :
    broadcastTo ⟨2, ![a, b]⟩ (shapeCast ⟨2, ![a, 1]⟩ (multiReduction .maximumf [1] ⟨1, ![a]⟩ L accM hr hφ hM) hc) hb (ix2 p k)
      = rowMaxFrom accM L p := by
  rw [spread_apply, column_apply, rowMax_apply]
  rfl

/-- The log-softmax in the kernel's spelling at (p, q). -/
theorem kernel_apply (L : FVec Ideal ⟨2, ![a, b]⟩ .f32) (accM accS : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (hS : accS = FKind.add.neutral .f32 hφ)
    (p : Fin a) (q : Fin b) :
    subf L (broadcastTo ⟨2, ![a, b]⟩
        (addf (shapeCast ⟨2, ![a, 1]⟩ (multiReduction .maximumf [1] ⟨1, ![a]⟩ L accM hr hφ hM) hc)
          (log (shapeCast ⟨2, ![a, 1]⟩ (multiReduction .add [1] ⟨1, ![a]⟩
            (exp (subf L (broadcastTo ⟨2, ![a, b]⟩
              (shapeCast ⟨2, ![a, 1]⟩ (multiReduction .maximumf [1] ⟨1, ![a]⟩ L accM hr hφ hM) hc) hb)))
            accS hr hφ hS) hc))) hb) (ix2 p q)
      = L (ix2 p q) - (rowMaxFrom accM L p + Ideal.log (∑ k : Fin b, Ideal.exp (L (ix2 p k) - rowMaxFrom accM L p))) := by
  rw [subf_apply, spread_apply, addf_apply, column_apply, rowMax_apply, log_apply, column_apply, rowSum_apply]
  refine congrArg (fun s => L (ix2 p q) - (rowMaxFrom accM L p + Ideal.log s)) (Finset.sum_congr rfl fun k _ => ?_)
  rw [exp_apply, subf_apply, maxColumn_apply]

end Cert.RowLogSoftmax

end
-- ==== Proof.LibRowLogSoftmaxShift.lean ====
/-
  A row-wise log-softmax in the "subtract the maximum first" spelling, read at one index on the extended reals.

  A kernel body that normalises the rows of an [a, b] vector L to log-probabilities may first subtract from every
  row its maximum m (a reduction along the second axis, viewed as an [a, 1] column and repeated along the row),
  giving the shifted rows S = L - m; then exponentiate S, sum each row, take the logarithm of the sum, repeat that
  column along the row and subtract it from S.  At (p, q) this is (L(p, q) - m_p) - log Σ_k exp(L(p, k) - m_p),
  where m_p is the fold of `max` over row p from the value of the starting word.  Every step only moves
  coordinates or acts entry by entry, so no entry has to be finite.
-/
import Idealize.ShloMosaic.PureOps.Ideal.Laws
import Idealize.ShloMosaic.Lib.ValueIdx
import Idealize.ShloMosaic.Lib.Pipeline.Value
import proofs.«181030_j27762668601494_2_alg».proof.Proof.LibRowOps
import proofs.«181030_j27762668601494_2_alg».proof.Proof.LibRowLogSoftmax

noncomputable section

namespace Cert.RowLogSoftmaxShift

open Idealize.ShloMosaic Idealize.ShloMosaic.ValueIdx Cert.RowOps Cert.RowLogSoftmax

variable {a b : Nat}

/-- The rows with their maximum subtracted, in the kernel's spelling, at (p, k). -/
theorem shifted_apply (L : FVec Ideal ⟨2, ![a, b]⟩ .f32) (accM : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (p : Fin a) (k : Fin b) :
    subf L (broadcastTo ⟨2, ![a, b]⟩ (shapeCast ⟨2, ![a, 1]⟩ (multiReduction .maximumf [1] ⟨1, ![a]⟩ L accM hr hφ hM) hc) hb) (ix2 p k)
      = L (ix2 p k) - rowMaxFrom accM L p := by
  rw [subf_apply, maxColumn_apply]

/-- The log-softmax in the kernel's "subtract the maximum first" spelling at (p, q). -/
theorem kernel_apply (L : FVec Ideal ⟨2, ![a, b]⟩ .f32) (accM accS : BitVec (FTy.f32).bits)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφ : FKind.Formats .f32) (hM : accM = FKind.maximumf.neutral .f32 hφ) (hS : accS = FKind.add.neutral .f32 hφ)
    (p : Fin a) (q : Fin b) :
    subf (subf L (broadcastTo ⟨2, ![a, b]⟩ (shapeCast ⟨2, ![a, 1]⟩ (multiReduction .maximumf [1] ⟨1, ![a]⟩ L accM hr hφ hM) hc) hb))
        (broadcastTo ⟨2, ![a, b]⟩
          (log (shapeCast ⟨2, ![a, 1]⟩ (multiReduction .add [1] ⟨1, ![a]⟩
            (exp (subf L (broadcastTo ⟨2, ![a, b]⟩
              (shapeCast ⟨2, ![a, 1]⟩ (multiReduction .maximumf [1] ⟨1, ![a]⟩ L accM hr hφ hM) hc) hb)))
            accS hr hφ hS) hc)) hb) (ix2 p q)
      = (L (ix2 p q) - rowMaxFrom accM L p) - Ideal.log (∑ k : Fin b, Ideal.exp (L (ix2 p k) - rowMaxFrom accM L p)) := by
  rw [subf_apply, shifted_apply, spread_apply, log_apply, column_apply, rowSum_apply]
  refine congrArg (fun s => (L (ix2 p q) - rowMaxFrom accM L p) - Ideal.log s) (Finset.sum_congr rfl fun k _ => ?_)
  rw [exp_apply, shifted_apply]

/-- Taking the maximum once more with the value the fold started from changes nothing. -/
theorem max_rowMaxFrom (accM : BitVec (FTy.f32).bits) (L : FVec Ideal ⟨2, ![a, b]⟩ .f32) (p : Fin a) :
    max (Ideal.ofBits .f32 accM) (rowMaxFrom accM L p) = rowMaxFrom accM L p :=
  max_eq_right ((Finset.le_fold_max _).mpr (Or.inl le_rfl))

end Cert.RowLogSoftmaxShift

end
-- ==== Proof.R5.lean ====
/-
  Region 5: the second layer's bias and the row-wise log-softmax.

  The grid has twenty points; point t takes rows 5000·t … 5000·t + 4999 of the [100000, 16] aggregate and the whole
  [1, 16] bias row.  It writes back, as the same rows of two result arrays, h = aggregate + bias and
  (h − m) − log Σₖ exp (h(·, k) − m), where m is the maximum of the row of h, folded from −∞.
  Both are functions of the row alone, so each block is the same rows of a whole-array expression: the bias row repeated
  over all rows and added, and the host's log-softmax of that — which takes the maximum with −∞ once more (that changes
  nothing) and adds the row sum to a zero initial value (nor does that).  The twenty blocks tile each result, so the
  two result arrays end at these two whole-array expressions of the two input arrays.
-/
import proofs.«181030_j27762668601494_2_alg».proof.Proof.Gen.KernelIdeal.Frame
import proofs.«181030_j27762668601494_2_alg».proof.Proof.LibRowOps
import proofs.«181030_j27762668601494_2_alg».proof.Proof.LibHostRowOps
import proofs.«181030_j27762668601494_2_alg».proof.Proof.LibRowColOps
import Idealize.ShloMosaic.Lib.Pipeline.Value
import Idealize.ShloMosaic.Lib.ValueIdx
import Idealize.ShloMosaic.Lib.IdealHost
import proofs.«181030_j27762668601494_2_alg».proof.Proof.LibRowLogSoftmaxShift

set_option maxRecDepth 16384

noncomputable section

namespace Cert.KernelIdeal.Hand.R5

open Cert.KernelIdeal Cert.KernelIdeal.Gen
open Idealize.ShloMosaic Idealize.ShloMosaic.TcCoe Idealize.ShloMosaic.ValueIdx Idealize.SL.Sem
open Idealize.ShloMosaic.Pipeline (Dat)

-- the buffer contents when the region is entered: every statement below holds for any
variable (V : (c : Dev nD) → (b : Ref sig .tc) → Buf (Elt Ideal) ((c : Thread nD τ).loc b))

theorem hz : (![0, 0] : Fin 2 → Nat) = fun _ => 0 := funext fun a => by fin_cases a <;> rfl

open Cert.RowLogSoftmax (rowMaxFrom)

/-- The printed index maps over the grid: the row-block index is the point, every other block index zero. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-! ## The body at an index -/

/-- The biased block at (p, q). -/
theorem pay1_apply (x : Vec Ideal S5000x16 .f32) (br : Vec Ideal S1x16 .f32) (p : Fin 5000) (q : Fin 16) :
    k5_pay1 x br (ix2 p q) = x (ix2 p q) + br (ix2 (0 : Fin 1) q) := by
  unfold k5_pay1
  show shapeCast S5000x16 x _ (ix2 p q) + broadcastTo S5000x16 (shapeCast S1x16 br _) _ (ix2 p q) = _
  rw [RowColOps.rowSpread_apply, shapeCast_self, shapeCast_self]

/-- The word the maximum is folded from (−∞) and the word the sum starts from (zero). -/
abbrev wNegInf : BitVec (FTy.f32).bits := 0xFF800000#32
abbrev wZero : BitVec (FTy.f32).bits := 0x00000000#32

/-- The block's log-softmax at (p, q), over the biased block L. -/
theorem pay2_apply (x : Vec Ideal S5000x16 .f32) (br : Vec Ideal S1x16 .f32) (p : Fin 5000) (q : Fin 16) :
    k5_pay2 x br (ix2 p q)
      = (k5_pay1 x br (ix2 p q) - rowMaxFrom wNegInf (k5_pay1 x br) p)
        - Ideal.log (∑ k : Fin 16, Ideal.exp (k5_pay1 x br (ix2 p k) - rowMaxFrom wNegInf (k5_pay1 x br) p)) := by
  unfold k5_pay2
  exact RowLogSoftmaxShift.kernel_apply (k5_pay1 x br) wNegInf wZero _ _ _ _ _ _ p q

/-! ## The whole-array expressions, in the host's spelling -/

abbrev Scol : Shape := ⟨2, ![100000, 1]⟩

theorem hbr : S1x16.BroadcastsInDim S100000x16 ![0, 1] := by decide
theorem b0 : S_.BroadcastsInDim S100000 ![] := by decide
theorem b1 : S100000.BroadcastsInDim Scol ![0] := by decide
theorem b2 : Scol.BroadcastsInDim S100000x16 ![0, 1] := by decide
theorem rt : S100000x16.ReducesTo [1] S100000 := by decide
theorem rd : S100000x16.Reduces [1] S100000 := by decide
theorem hu : 0 < S_.numel := by decide

/-- The bias row repeated over all rows and added. -/
abbrev Gh (a : FVec Ideal S100000x16 .f32) (br : FVec Ideal S1x16 .f32) : FVec Ideal S100000x16 .f32 :=
  addf a (broadcastInDim S100000x16 ![0, 1] hbr br)

theorem Gh_apply (a : FVec Ideal S100000x16 .f32) (br : FVec Ideal S1x16 .f32) (r : Fin 100000) (s : Fin 16) :
    Gh a br (ix2 r s) = a (ix2 r s) + br (ix2 (0 : Fin 1) s) := by
  show a (ix2 r s) + broadcastInDim S100000x16 ![0, 1] hbr br (ix2 r s) = _
  rw [HostRowOps.rowToMat_apply]

abbrev cNegInf : FVec Ideal S_ .f32 := constant (F := Ideal) S_ .f32 0xFF800000#32
abbrev cZero : FVec Ideal S_ .f32 := constant (F := Ideal) S_ .f32 0x00000000#32

/-- Every row with its maximum subtracted: the row maximum (a reduce from −∞, then a maximum with −∞ once more) laid out
    as a column and repeated along the row. -/
def shiftR (h : FVec Ideal S100000x16 .f32) : FVec Ideal S100000x16 .f32 :=
  subf h (broadcastInDim S100000x16 ![0, 1] b2 (broadcastInDim Scol ![0] b1
    (maximumf (broadcastInDim S100000 ![] b0 cNegInf) (Host.reduce FloatOps.maximumf h cNegInf rt hu))))

/-- The host's log-softmax along the rows. -/
def lsmR (h : FVec Ideal S100000x16 .f32) : FVec Ideal S100000x16 .f32 :=
  subf (shiftR h) (broadcastInDim S100000x16 ![0, 1] b2 (Host.log (broadcastInDim Scol ![0] b1
    (Host.reduceAdd (Host.exp (shiftR h)) cZero rt hu))))

theorem hostLog_apply {s : Shape} {φ : FTy} (x : FVec Ideal s φ) (i : s.Idx) : Host.log x i = Ideal.log (x i) := rfl

theorem hostExp_apply {s : Shape} {φ : FTy} (x : FVec Ideal s φ) (i : s.Idx) : Host.exp x i = Ideal.exp (x i) := rfl

theorem cNegInf_apply (i : S_.Idx) : cNegInf i = Ideal.ofBits .f32 wNegInf := rfl

theorem cZero_apply (i : S_.Idx) : cZero i = 0 := Ideal.ofBits_zero_f32

/-- The row maximum the host computes, at row r: the fold from −∞, and a maximum with −∞ once more. -/
theorem hostRowMax_apply (h : FVec Ideal S100000x16 .f32) (r : Fin 100000) :
    maximumf (broadcastInDim S100000 ![] b0 cNegInf) (Host.reduce FloatOps.maximumf h cNegInf rt hu) (ix1 r)
      = rowMaxFrom wNegInf h r := by
  rw [maximumf_apply, broadcastInDim_scalar_apply, HostRowOps.rowMax_apply h cNegInf rt rd hu r, cNegInf_apply, cNegInf_apply]
  exact RowLogSoftmaxShift.max_rowMaxFrom wNegInf h r

theorem shiftR_apply (h : FVec Ideal S100000x16 .f32) (r : Fin 100000) (s : Fin 16) :
    shiftR h (ix2 r s) = h (ix2 r s) - rowMaxFrom wNegInf h r := by
  unfold shiftR
  rw [subf_apply, HostRowOps.colToMat_apply, HostRowOps.vecToCol_apply, hostRowMax_apply]

/-- The host's row sum of exponentials, at row r. -/
theorem hostRowSumExp_apply (z : FVec Ideal S100000x16 .f32) (r : Fin 100000) :
    Host.reduceAdd (Host.exp z) cZero rt hu (ix1 r) = ∑ k : Fin 16, Ideal.exp (z (ix2 r k)) := by
  rw [HostRowOps.rowSum_apply (Host.exp z) cZero rt rd hu r, cZero_apply, zero_add]
  exact Finset.sum_congr rfl fun k _ => hostExp_apply z (ix2 r k)

theorem lsmR_apply (h : FVec Ideal S100000x16 .f32) (r : Fin 100000) (s : Fin 16) :
    lsmR h (ix2 r s) = (h (ix2 r s) - rowMaxFrom wNegInf h r)
      - Ideal.log (∑ k : Fin 16, Ideal.exp (h (ix2 r k) - rowMaxFrom wNegInf h r)) := by
  unfold lsmR
  rw [subf_apply, HostRowOps.colToMat_apply, hostLog_apply, HostRowOps.vecToCol_apply, hostRowSumExp_apply, shiftR_apply]
  exact congrArg (fun z => (h (ix2 r s) - rowMaxFrom wNegInf h r) - Ideal.log z)
    (Finset.sum_congr rfl fun k _ => by rw [shiftR_apply])

/-- The row maximum depends on the row only: two arrays agreeing on a row have the same maximum there. -/
theorem rowMaxFrom_congr {a a' b : Nat} (L : FVec Ideal ⟨2, ![a, b]⟩ .f32) (H : FVec Ideal ⟨2, ![a', b]⟩ .f32) (p : Fin a) (r : Fin a')
    (hL : ∀ k : Fin b, L (ix2 p k) = H (ix2 r k)) : rowMaxFrom wNegInf L p = rowMaxFrom wNegInf H r := by
  unfold rowMaxFrom
  exact congrArg (fun f => Finset.fold max (Ideal.ofBits .f32 wNegInf) f (Finset.univ : Finset (Fin b))) (funext hL)

/-- The shifted log-softmax of a row depends on the row only. -/
theorem lsm_row_congr {a a' : Nat} (L : FVec Ideal ⟨2, ![a, 16]⟩ .f32) (H : FVec Ideal ⟨2, ![a', 16]⟩ .f32) (p : Fin a) (r : Fin a')
    (hL : ∀ k : Fin 16, L (ix2 p k) = H (ix2 r k)) (q : Fin 16) :
    (L (ix2 p q) - rowMaxFrom wNegInf L p) - Ideal.log (∑ k : Fin 16, Ideal.exp (L (ix2 p k) - rowMaxFrom wNegInf L p))
      = (H (ix2 r q) - rowMaxFrom wNegInf H r) - Ideal.log (∑ k : Fin 16, Ideal.exp (H (ix2 r k) - rowMaxFrom wNegInf H r)) := by
  rw [rowMaxFrom_congr L H p r hL, hL q]
  exact congrArg (fun z => (H (ix2 r q) - rowMaxFrom wNegInf H r) - Ideal.log z)
    (Finset.sum_congr rfl fun k _ => by rw [hL k])

/-! ## Blocks to arrays -/

/-- The biased block at (p, k) is the whole-array biased entry at the block's row. -/
theorem biased_block (c : Dev nD) (t : Fin cfg5.N) (p : Fin 5000) (k : Fin 16) (r : Fin 100000) (hr : r.val = t.val * 5000 + p.val) :
    k5_pay1 (iblk5 V c 0 t) (iblk5 V c 1 t) (ix2 p k) = Gh (V c main_v56) (V c main_v57) (ix2 r k) := by
  refine (pay1_apply (iblk5 V c 0 t) (iblk5 V c 1 t) p k).trans ?_
  refine Eq.trans ?_ (Gh_apply (V c main_v56) (V c main_v57) r k).symm
  obtain ⟨e00, e01, e10, e11, -, -, -, -⟩ := idx_facts t
  have hp : p.val < 5000 := p.isLt
  have hk : k.val < 16 := k.isLt
  have ha : iblk5 V c 0 t (ix2 p k) = V c main_v56 (ix2 r k) := by
    show V c main_v56 (((cfg5.win 0).blk t).view.emb (ix2 p k)) = _
    refine congrArg (V c main_v56) (funext fun a => Fin.ext ?_)
    match a with
    | ⟨0, _⟩ => show win5_0.index t (0 : Fin 2) * 5000 + 1 * p.val = r.val; rw [e00, hr]; omega
    | ⟨1, _⟩ => show win5_0.index t (1 : Fin 2) * 16 + 1 * k.val = k.val; rw [e01]; omega
  have hc : iblk5 V c 1 t (ix2 (0 : Fin 1) k) = V c main_v57 (ix2 (0 : Fin 1) k) := by
    show V c main_v57 (((cfg5.win 1).blk t).view.emb (ix2 (0 : Fin 1) k)) = _
    refine congrArg (V c main_v57) (funext fun a => Fin.ext ?_)
    match a with
    | ⟨0, _⟩ => show win5_1.index t (0 : Fin 2) * 1 + 1 * 0 = 0; rw [e10]
    | ⟨1, _⟩ => show win5_1.index t (1 : Fin 2) * 16 + 1 * k.val = k.val; rw [e11]; omega
  rw [ha, hc]

/-- What point t writes back to the first result is block t of the biased aggregate. -/
theorem flushed_eq2 (c : Dev nD) (t : Fin cfg5.N) :
    (dat5 V c).flushed 2 t = ((cfg5.win 2).blk t).view.read (Elt Ideal) (Gh (V c main_v56) (V c main_v57)) := by
  show (cfg5.win 2).cut (grid5.coords t) ((dat5 V c).after 2 t) = _
  rw [after5_2]
  unfold out5_2
  rw [View.canon_unit_zero hz]
  simp only [View.ld_unit_zero (S := S5000x16) hz, View.ld_unit_zero (S := S1x16) hz]
  funext j
  obtain ⟨p, q, rfl⟩ : ∃ (p : Fin 5000) (q : Fin 16), j = ix2 p q := ⟨j 0, j 1, eq_ix2 j⟩
  show k5_pay1 (iblk5 V c 0 t) (iblk5 V c 1 t) (ix2 p q) = Gh (V c main_v56) (V c main_v57) (((cfg5.win 2).blk t).view.emb (ix2 p q))
  obtain ⟨-, -, -, -, e20, e21, -, -⟩ := idx_facts t
  have hp : p.val < 5000 := p.isLt
  have hq : q.val < 16 := q.isLt
  generalize hi : ((cfg5.win 2).blk t).view.emb (ix2 p q) = i
  have i0 : (i 0).val = t.val * 5000 + p.val := by
    rw [← hi]; show win5_2.index t (0 : Fin 2) * 5000 + 1 * p.val = _; rw [e20]; omega
  have i1 : (i 1).val = q.val := by
    rw [← hi]; show win5_2.index t (1 : Fin 2) * 16 + 1 * q.val = _; rw [e21]; omega
  have hq' : q = i 1 := Fin.ext i1.symm
  rw [show i = ix2 (i 0) (i 1) from eq_ix2 i, ← hq']
  exact biased_block V c t p q (i 0) i0

/-- What point t writes back to the second result is block t of the host's log-softmax of the biased aggregate. -/
theorem flushed_eq3 (c : Dev nD) (t : Fin cfg5.N) :
    (dat5 V c).flushed 3 t = ((cfg5.win 3).blk t).view.read (Elt Ideal) (lsmR (Gh (V c main_v56) (V c main_v57))) := by
  show (cfg5.win 3).cut (grid5.coords t) ((dat5 V c).after 3 t) = _
  rw [after5_3]
  unfold out5_3
  rw [View.canon_unit_zero hz]
  simp only [View.ld_unit_zero (S := S5000x16) hz, View.ld_unit_zero (S := S1x16) hz]
  funext j
  obtain ⟨p, q, rfl⟩ : ∃ (p : Fin 5000) (q : Fin 16), j = ix2 p q := ⟨j 0, j 1, eq_ix2 j⟩
  show k5_pay2 (iblk5 V c 0 t) (iblk5 V c 1 t) (ix2 p q) = lsmR (Gh (V c main_v56) (V c main_v57)) (((cfg5.win 3).blk t).view.emb (ix2 p q))
  obtain ⟨-, -, -, -, -, -, e30, e31⟩ := idx_facts t
  have hp : p.val < 5000 := p.isLt
  have hq : q.val < 16 := q.isLt
  generalize hi : ((cfg5.win 3).blk t).view.emb (ix2 p q) = i
  have i0 : (i 0).val = t.val * 5000 + p.val := by
    rw [← hi]; show win5_3.index t (0 : Fin 2) * 5000 + 1 * p.val = _; rw [e30]; omega
  have i1 : (i 1).val = q.val := by
    rw [← hi]; show win5_3.index t (1 : Fin 2) * 16 + 1 * q.val = _; rw [e31]; omega
  have hq' : q = i 1 := Fin.ext i1.symm
  rw [show i = ix2 (i 0) (i 1) from eq_ix2 i, ← hq']
  exact ((pay2_apply (iblk5 V c 0 t) (iblk5 V c 1 t) p q).trans
    (lsm_row_congr (k5_pay1 (iblk5 V c 0 t) (iblk5 V c 1 t)) (Gh (V c main_v56) (V c main_v57)) p (i 0)
      (fun k => biased_block V c t p k (i 0) i0) q)).trans
    (lsmR_apply (Gh (V c main_v56) (V c main_v57)) (i 0) q).symm

/-- An index of the result array is in point t's block iff each coordinate is in the block's range on its axis. -/
theorem mem_blk2 (t : Fin cfg5.N) (i : S100000x16.Idx) :
    i ∈ ((cfg5.win 2).blk t).view.set ↔ ∀ a : Fin 2, win5_2.index t a * S5000x16.size a ≤ (i a).val ∧ (i a).val < win5_2.index t a * S5000x16.size a + S5000x16.size a := by
  show i ∈ ((View.whole main_v58_0).slice (win5_2.rect t)).set ↔ _
  rw [View.set_slice_whole, Rect.mem_set_unit]
  exact Iff.rfl

/-- Every index of the result array lies in the block of the point its row falls in. -/
theorem cover2 (i : S100000x16.Idx) : ∃ t : Fin cfg5.N, (cfg5.win 2).flush t = true ∧ i ∈ ((cfg5.win 2).blk t).view.set := by
  have hi0 : (i 0).val < 100000 := (i 0).isLt
  have hi1 : (i 1).val < 16 := (i 1).isLt
  have hN : cfg5.N = 20 := N_5
  have ht : (i 0).val / 5000 < cfg5.N := by rw [hN]; omega
  refine ⟨⟨(i 0).val / 5000, ht⟩, flush5_2 _, ?_⟩
  rw [mem_blk2]
  have e := idx_facts ⟨(i 0).val / 5000, ht⟩
  have e0 : win5_2.index ⟨(i 0).val / 5000, ht⟩ (0 : Fin 2) = (i 0).val / 5000 := e.2.2.2.2.1
  have e1 : win5_2.index ⟨(i 0).val / 5000, ht⟩ (1 : Fin 2) = 0 := e.2.2.2.2.2.1
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e0]; omega
  | ⟨1, _⟩ =>
    show win5_2.index ⟨(i 0).val / 5000, ht⟩ (1 : Fin 2) * 16 ≤ (i 1).val ∧ (i 1).val < win5_2.index ⟨(i 0).val / 5000, ht⟩ (1 : Fin 2) * 16 + 16
    rw [e1]; omega

/-- An index of the result array is in point t's block iff each coordinate is in the block's range on its axis. -/
theorem mem_blk3 (t : Fin cfg5.N) (i : S100000x16.Idx) :
    i ∈ ((cfg5.win 3).blk t).view.set ↔ ∀ a : Fin 2, win5_3.index t a * S5000x16.size a ≤ (i a).val ∧ (i a).val < win5_3.index t a * S5000x16.size a + S5000x16.size a := by
  show i ∈ ((View.whole main_v58_1).slice (win5_3.rect t)).set ↔ _
  rw [View.set_slice_whole, Rect.mem_set_unit]
  exact Iff.rfl

/-- Every index of the result array lies in the block of the point its row falls in. -/
theorem cover3 (i : S100000x16.Idx) : ∃ t : Fin cfg5.N, (cfg5.win 3).flush t = true ∧ i ∈ ((cfg5.win 3).blk t).view.set := by
  have hi0 : (i 0).val < 100000 := (i 0).isLt
  have hi1 : (i 1).val < 16 := (i 1).isLt
  have hN : cfg5.N = 20 := N_5
  have ht : (i 0).val / 5000 < cfg5.N := by rw [hN]; omega
  refine ⟨⟨(i 0).val / 5000, ht⟩, flush5_3 _, ?_⟩
  rw [mem_blk3]
  have e := idx_facts ⟨(i 0).val / 5000, ht⟩
  have e0 : win5_3.index ⟨(i 0).val / 5000, ht⟩ (0 : Fin 2) = (i 0).val / 5000 := e.2.2.2.2.2.2.1
  have e1 : win5_3.index ⟨(i 0).val / 5000, ht⟩ (1 : Fin 2) = 0 := e.2.2.2.2.2.2.2
  intro a
  match a with
  | ⟨0, _⟩ =>
    show win5_3.index ⟨(i 0).val / 5000, ht⟩ (0 : Fin 2) * 5000 ≤ (i 0).val ∧ (i 0).val < win5_3.index ⟨(i 0).val / 5000, ht⟩ (0 : Fin 2) * 5000 + 5000
    rw [e0]; omega
  | ⟨1, _⟩ =>
    show win5_3.index ⟨(i 0).val / 5000, ht⟩ (1 : Fin 2) * 16 ≤ (i 1).val ∧ (i 1).val < win5_3.index ⟨(i 0).val / 5000, ht⟩ (1 : Fin 2) * 16 + 16
    rw [e1]; omega

/-- The first result array after the region: the biased aggregate. -/
theorem arr2 (c : Dev nD) : (dat5 V c).arrAt 2 cfg5.N = Gh (V c main_v56) (V c main_v57) :=
  (dat5 V c).arrAt_eq_of_cover 2 (Gh (V c main_v56) (V c main_v57)) (fun t _ => flushed_eq2 V c t) cover2

/-- The second result array after the region: the host's log-softmax of the biased aggregate. -/
theorem arr3 (c : Dev nD) : (dat5 V c).arrAt 3 cfg5.N = lsmR (Gh (V c main_v56) (V c main_v57)) :=
  (dat5 V c).arrAt_eq_of_cover 3 (lsmR (Gh (V c main_v56) (V c main_v57))) (fun t _ => flushed_eq3 V c t) cover3

/-- The two input arrays end as the region found them. -/
theorem arr_in (c : Dev nD) (w : Fin cfg5.W) (hw : w ≠ 2 ∧ w ≠ 3) : (dat5 V c).arrAt w cfg5.N = V c (Pipeline.arrRef spec5 w) :=
  match w, hw with
  | ⟨0, _⟩, _ => ((dat5 V c).arrAt_in 0 rfl _).trans (A_eq5 V c 0)
  | ⟨1, _⟩, _ => ((dat5 V c).arrAt_in 1 rfl _).trans (A_eq5 V c 1)
  | ⟨2, _⟩, h => absurd rfl h.1
  | ⟨3, _⟩, h => absurd rfl h.2

end Cert.KernelIdeal.Hand.R5

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.LibRegionOps.lean ====
/-
  A pipelined region with several output arrays as a short line of pure operations.

  A program that alternates stretches of host operations with pipelined regions leaves, at each boundary, the buffer
  contents obtained by folding its segments over the launch contents.  A region replaces its arrays by what its
  write-backs leave and touches nothing else.  If a list of operations writes exactly the region's output arrays, each
  output array ends at what the list leaves there, and every other array of the region ends as the region found it, then
  the region rewrites the contents exactly as that list does.  With one such list per region the whole program is one
  line of operations, and what a buffer holds at the end is a computation over that line.
-/
import Idealize.ShloMosaic.Lib.Pipeline.FrameSuffix
import Idealize.ShloMosaic.Lib.StableHlo.Run

noncomputable section

namespace Cert.RegionOps

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output arrays (those in `outs`) end at what the line `ops` leaves there, whose other arrays end as
    the region found them, while `ops` writes output arrays only, leaves what `ops` leaves. -/
theorem withArrays_eq_after {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (ops : List (HloOp τ sig Val)) (outs : Finset (Fin W))
    (hw : ∀ op ∈ ops, ∀ b ∈ op.writes, ∃ w ∈ outs, b = Proc.devRef .tc (Pipeline.arrRef win w))
    (hout : ∀ w ∈ outs, A w = after ops V (Proc.devRef .tc (Pipeline.arrRef win w)))
    (hin : ∀ w, w ∉ outs → A w = V (Proc.devRef .tc (Pipeline.arrRef win w))) :
    Pipeline.withArrays win c V A = after ops V := by
  funext b
  by_cases h : ∃ w, Proc.devRef .tc (Pipeline.arrRef win w) = b
  · obtain ⟨w, rfl⟩ := h
    rw [Pipeline.withArrays_arr win hinj]
    by_cases hwo : w ∈ outs
    · exact hout w hwo
    · rw [hin w hwo, after_of_forall_not_mem ops V fun op hop hb => by
        obtain ⟨w', hw', e⟩ := hw op hop _ hb
        exact hwo ((hinj (Proc.devRef_injective _ e)) ▸ hw')]
  · rw [after_of_forall_not_mem ops V fun op hop hb => by
      obtain ⟨w', _, e⟩ := hw op hop _ hb
      exact h ⟨w', e.symm⟩]
    unfold Pipeline.withArrays
    rw [dif_neg h]

end Cert.RegionOps

end
-- ==== Proof.KLine.lean ====
/-
  The idealized kernel's program as one line of operations.

  At each boundary between segments the buffer contents are a fold over the launch contents: a host operation rewrites
  its result buffer with its function of its operands; a region rewrites its arrays with what its write-backs leave.
  Each of the six regions leaves its input arrays as it found them and its result array (for the last region, its two
  result arrays) at a whole-array function of the inputs, so each region acts on the contents as one host operation
  (the last as two).  Put in the regions' places, these operations make the whole program one line, and the contents
  at the last boundary are that line folded over the launch contents.
-/
import proofs.«181030_j27762668601494_2_alg».proof.Proof.Gen.KernelIdeal.Frame
import proofs.«181030_j27762668601494_2_alg».proof.Proof.R0
import proofs.«181030_j27762668601494_2_alg».proof.Proof.R1
import proofs.«181030_j27762668601494_2_alg».proof.Proof.R2
import proofs.«181030_j27762668601494_2_alg».proof.Proof.R3
import proofs.«181030_j27762668601494_2_alg».proof.Proof.R4
import proofs.«181030_j27762668601494_2_alg».proof.Proof.R5
import proofs.«181030_j27762668601494_2_alg».proof.Proof.LibRegionOp
import proofs.«181030_j27762668601494_2_alg».proof.Proof.LibRegionOps

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The two whole-array products' dimension numbers -/

/-- [100000, 32] × [32, 32]: contract the left operand's second axis with the right operand's first. -/
def dW1 : DotDims S100000x32 S32x32 S100000x32 where
  lhsContracting := [1]
  rhsContracting := [0]
  lhsNonContracting := [0]
  rhsNonContracting := [1]
  lhsBatch := []
  rhsBatch := []
  wf := by decide

/-- [100000, 32] × [32, 16], the same contraction. -/
def dW2 : DotDims S100000x32 S32x16 S100000x16 where
  lhsContracting := [1]
  rhsContracting := [0]
  lhsNonContracting := [0]
  rhsNonContracting := [1]
  lhsBatch := []
  rhsBatch := []
  wf := by decide

theorem dW1_plain : RowOps.IsPlain dW1 := ⟨rfl, rfl, rfl, rfl, rfl, rfl⟩
theorem dW2_plain : RowOps.IsPlain dW2 := ⟨rfl, rfl, rfl, rfl, rfl, rfl⟩

/-! ## The regions as operations -/

abbrev op0 : HloOp τ sig (Elt Ideal) :=
  binary main_arg0 main_arg2 main_v31 (R0.G dW1 : (⟨S100000x32, .f32⟩ : BufTy).Contents (Elt Ideal) → (⟨S32x32, .f32⟩ : BufTy).Contents (Elt Ideal) → (⟨S100000x32, .f32⟩ : BufTy).Contents (Elt Ideal))
abbrev op1 : HloOp τ sig (Elt Ideal) :=
  binary main_v38 main_v30 main_v39 (R1.G : (⟨S1700000x32, .f32⟩ : BufTy).Contents (Elt Ideal) → (⟨S1700000x1, .f32⟩ : BufTy).Contents (Elt Ideal) → (⟨S1700000x32, .f32⟩ : BufTy).Contents (Elt Ideal))
abbrev op2 : HloOp τ sig (Elt Ideal) :=
  binary main_v42 main_v43 main_v44 (R2.G : (⟨S100000x32, .f32⟩ : BufTy).Contents (Elt Ideal) → (⟨S1x32, .f32⟩ : BufTy).Contents (Elt Ideal) → (⟨S100000x32, .f32⟩ : BufTy).Contents (Elt Ideal))
abbrev op3 : HloOp τ sig (Elt Ideal) :=
  binary main_v44 main_arg4 main_v45 (R3.G dW2 : (⟨S100000x32, .f32⟩ : BufTy).Contents (Elt Ideal) → (⟨S32x16, .f32⟩ : BufTy).Contents (Elt Ideal) → (⟨S100000x16, .f32⟩ : BufTy).Contents (Elt Ideal))
abbrev op4 : HloOp τ sig (Elt Ideal) :=
  binary main_v52 main_v30 main_v53 (R4.G : (⟨S1700000x16, .f32⟩ : BufTy).Contents (Elt Ideal) → (⟨S1700000x1, .f32⟩ : BufTy).Contents (Elt Ideal) → (⟨S1700000x16, .f32⟩ : BufTy).Contents (Elt Ideal))
abbrev op5a : HloOp τ sig (Elt Ideal) :=
  binary main_v56 main_v57 main_v58_0 (R5.Gh : (⟨S100000x16, .f32⟩ : BufTy).Contents (Elt Ideal) → (⟨S1x16, .f32⟩ : BufTy).Contents (Elt Ideal) → (⟨S100000x16, .f32⟩ : BufTy).Contents (Elt Ideal))
abbrev op5b : HloOp τ sig (Elt Ideal) :=
  binary main_v56 main_v57 main_v58_1 ((fun a b => R5.lsmR (R5.Gh a b)) : (⟨S100000x16, .f32⟩ : BufTy).Contents (Elt Ideal) → (⟨S1x16, .f32⟩ : BufTy).Contents (Elt Ideal) → (⟨S100000x16, .f32⟩ : BufTy).Contents (Elt Ideal))

/-- Region 0 rewrites the contents as its operation does. -/
theorem W4_eq (c : Dev nD) : W4 m ρ c = op0.result (W3 m ρ c) := by
  unfold W4
  exact RegionOp.withArrays_eq_result spec0 launch0.win.arr_inj c (W3 m ρ c) _ op0 2 rfl
    ((R0.arr (V3 m ρ) dW1 dW1_plain c).trans (binary_result main_arg0 main_arg2 main_v31 _ _ _ _ (W3 m ρ c)).symm)
    (fun w hw => R0.arr_in (V3 m ρ) c w hw)

/-- Region 1 rewrites the contents as its operation does. -/
theorem W6_eq (c : Dev nD) : W6 m ρ c = op1.result (W5 m ρ c) := by
  unfold W6
  exact RegionOp.withArrays_eq_result spec1 launch1.win.arr_inj c (W5 m ρ c) _ op1 2 rfl
    ((R1.arr (V5 m ρ) c).trans (binary_result main_v38 main_v30 main_v39 _ _ _ _ (W5 m ρ c)).symm)
    (fun w hw => R1.arr_in (V5 m ρ) c w hw)

/-- Region 2 rewrites the contents as its operation does. -/
theorem W8_eq (c : Dev nD) : W8 m ρ c = op2.result (W7 m ρ c) := by
  unfold W8
  exact RegionOp.withArrays_eq_result spec2 launch2.win.arr_inj c (W7 m ρ c) _ op2 2 rfl
    ((R2.arr (V7 m ρ) c).trans (binary_result main_v42 main_v43 main_v44 _ _ _ _ (W7 m ρ c)).symm)
    (fun w hw => R2.arr_in (V7 m ρ) c w hw)

/-- Region 3 rewrites the contents as its operation does. -/
theorem W9_eq (c : Dev nD) : W9 m ρ c = op3.result (W8 m ρ c) := by
  unfold W9
  exact RegionOp.withArrays_eq_result spec3 launch3.win.arr_inj c (W8 m ρ c) _ op3 2 rfl
    ((R3.arr (V8 m ρ) dW2 dW2_plain c).trans (binary_result main_v44 main_arg4 main_v45 _ _ _ _ (W8 m ρ c)).symm)
    (fun w hw => R3.arr_in (V8 m ρ) c w hw)

/-- Region 4 rewrites the contents as its operation does. -/
theorem W11_eq (c : Dev nD) : W11 m ρ c = op4.result (W10 m ρ c) := by
  unfold W11
  exact RegionOp.withArrays_eq_result spec4 launch4.win.arr_inj c (W10 m ρ c) _ op4 2 rfl
    ((R4.arr (V10 m ρ) c).trans (binary_result main_v52 main_v30 main_v53 _ _ _ _ (W10 m ρ c)).symm)
    (fun w hw => R4.arr_in (V10 m ρ) c w hw)

/-- Region 5 rewrites the contents as its two operations do. -/
theorem W13_eq5 (c : Dev nD) : W13 m ρ c = after [op5a, op5b] (W12 m ρ c) := by
  unfold W13
  refine RegionOps.withArrays_eq_after spec5 launch5.win.arr_inj c (W12 m ρ c) _ [op5a, op5b] {2, 3} ?_ ?_ ?_
  · intro op hop b hb
    rcases List.mem_cons.mp hop with rfl | hop
    · exact ⟨2, by decide, Finset.mem_singleton.mp hb⟩
    · rcases List.mem_cons.mp hop with rfl | hop
      · exact ⟨3, by decide, Finset.mem_singleton.mp hb⟩
      · exact absurd hop List.not_mem_nil
  · intro w hw
    rcases Finset.mem_insert.mp hw with rfl | hw
    · refine (R5.arr2 (V12 m ρ) c).trans ?_
      show _ = op5b.result (op5a.result (W12 m ρ c)) (Proc.devRef .tc main_v58_0)
      rw [op5b.result_of_not_mem _ (by decide)]
      exact (binary_result main_v56 main_v57 main_v58_0 _ _ _ _ (W12 m ρ c)).symm
    · obtain rfl := Finset.mem_singleton.mp hw
      refine (R5.arr3 (V12 m ρ) c).trans ?_
      show _ = op5b.result (op5a.result (W12 m ρ c)) (Proc.devRef .tc main_v58_1)
      rw [binary_result main_v56 main_v57 main_v58_1 _ _ _ _ (op5a.result (W12 m ρ c)),
        op5a.result_of_not_mem _ (by decide), op5a.result_of_not_mem _ (by decide)]
  · intro w hw
    exact R5.arr_in (V12 m ρ) c w ⟨fun h => hw (by rw [h]; decide), fun h => hw (by rw [h]; decide)⟩

/-! ## The line -/

/-- The program's line: the host stretches in order, each region's operations in the region's place. -/
abbrev kline : List (HloOp τ sig (Elt Ideal)) :=
  hostOps0 ++ (hostOps0_1 ++ (hostOps0_2 ++ (op0 :: (hostOps1 ++ (op1 :: (hostOps2 ++ (op2 :: op3 :: (hostOps4 ++ (op4 :: (hostOps5 ++ [op5a, op5b]))))))))))

/-- The contents at the last boundary are the line folded over the launch contents. -/
theorem W13_eq (c : Dev nD) : W13 m ρ c = after kline (W0 m ρ c) := by
  rw [W13_eq5]
  show after [op5a, op5b] (after hostOps5 (W11 m ρ c)) = _
  rw [W11_eq]
  show after [op5a, op5b] (after hostOps5 (op4.result (after hostOps4 (W9 m ρ c)))) = _
  rw [W9_eq, W8_eq]
  show after [op5a, op5b] (after hostOps5 (op4.result (after hostOps4 (op3.result (op2.result (after hostOps2 (W6 m ρ c))))))) = _
  rw [W6_eq]
  show after [op5a, op5b] (after hostOps5 (op4.result (after hostOps4 (op3.result (op2.result (after hostOps2 (op1.result (after hostOps1 (W4 m ρ c))))))))) = _
  rw [W4_eq]
  simp only [kline, RegionOp.after_append, after_cons]

end Cert.KernelIdeal.Hand

end
-- ==== Proof.KRun.lean ====
/-
  The idealized kernel's run, with its two result arrays read.

  The program is thirteen segments: stretches of host operations alternating with six pipelined regions.  Every
  weakly fair execution runs the segments in order and ends with every unscoped buffer holding the contents the
  last boundary names.  Reading that final state at the two result arrays as well as at the six arguments gives the
  run this certificate builds on: each result array ends at the last boundary's contents of it, each argument as
  launched.
-/
import proofs.«181030_j27762668601494_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two result arrays end at the last boundary's
    contents and the six arguments end as launched. -/
theorem run_last : θ_run defs (onTc (τ := τ) (main (F := F))) ⟨m, fun _ => 0, ρ⟩ (fun r => ∀ c : Dev nD,
      r.2.mem ((c.tc : Thread nD τ).loc main_v58_0) = W13 m ρ c (Proc.devRef .tc main_v58_0)
      ∧ r.2.mem ((c.tc : Thread nD τ).loc main_v58_1) = W13 m ρ c (Proc.devRef .tc main_v58_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v58_0 (by decide)),
       h c _ (mem_uc main_v58_1 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.Hand

end
-- ==== Proof.LibLineEval.lean ====
/-
  Evaluating a line of host operations at one buffer, through joined vectors.

  What a buffer holds after a line of host operations is computed by walking the line backwards: an operation's own
  result buffer holds its function of what its operand buffers held before it, any other buffer what it held before.
  The library's one-pass form of this walk stops at a vector made by joining pieces end to end: the join takes its
  pieces as a list of (shape, vector) pairs and its side condition is stated of that list, so the pass cannot rewrite
  a piece and leaves the rest of the walk unevaluated inside it.  Stated as a function of its two pieces — the side
  condition then speaks of the two shapes only — a two-piece join lets the walk continue into both pieces.
  `eval_line` is the one-pass walk with that restatement added, and with the rules that take the first or the last
  so many operations of a literal line, so that a long line can be evaluated in two halves.
-/
import Idealize.ShloMosaic.Lib.StableHlo.Run

noncomputable section

namespace Cert.LineEval

open Idealize.ShloMosaic Idealize.ShloMosaic.StableHlo

/-- Two vectors joined along an axis, as a function of the two vectors. -/
def joined {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list of pieces is that function of the pieces. -/
theorem joined_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = joined t a s₁ s₂ h x y := rfl

/-- The walk as one simplification pass over a literal line, or over a literal line's first or last so many
    operations; two-piece joins are entered. Closes a goal `after ops V (Proc.devRef .tc r) = …` or leaves an equation
    between the operations' functions applied to `V` at the buffers the line only reads. -/
macro "eval_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      List.take_succ_cons, List.take_zero, List.drop_succ_cons, List.drop_zero]))

end Cert.LineEval

end
-- ==== Proof.LibTypedRef.lean ====
/-
  Typed references and the transports they carry.

  A typed reference pairs a buffer with the type of the tensor value it holds; contents at the value's type are moved to
  contents of the buffer and back along the equation between the two types.  The transports change nothing: going there and
  back is the identity, and a transported value equals any value of the other type that it is heterogeneously equal to.
-/
import Idealize.ShloMosaic.Lib.StableHlo.Run

noncomputable section

namespace Cert.TypedRef

open Idealize.ShloMosaic Idealize.ShloMosaic.StableHlo

variable {sig : RefSig} {Val : EltTy → Type} {T : BufTy}

/-- To the buffer's type and back is the identity. -/
theorem ofBuf_toBuf (x : TRef sig T) (v : T.Contents Val) : x.ofBuf (x.toBuf v) = v := by
  obtain ⟨r, h, h1, h2⟩ := x
  subst h
  rfl

/-- A value moved to the buffer's type is any value of that type it is heterogeneously equal to. -/
theorem toBuf_eq (x : TRef sig T) (v : T.Contents Val) (w : x.ref.ty.Contents Val) (h : HEq v w) : x.toBuf v = w :=
  eq_of_heq ((cast_heq _ v).trans h)

/-- A value moved from the buffer's type is any value of the value's type it is heterogeneously equal to. -/
theorem ofBuf_eq (x : TRef sig T) (v : x.ref.ty.Contents Val) (w : T.Contents Val) (h : HEq v w) : x.ofBuf v = w :=
  eq_of_heq ((cast_heq _ v).trans h)

end Cert.TypedRef

end
-- ==== Proof.KValue.lean ====
/-
  What the idealized kernel's two result arrays end holding.

  The network is two graph-convolution layers.  From the edge list come the source and destination of every edge (the
  given edges followed by a self loop per node), each node's degree, and each edge's coefficient.  A layer multiplies the
  node features by a weight, gathers every edge's source row, scales it by the edge's coefficient, adds the scaled rows
  into their destination rows, and adds a bias; the first layer ends in tanh, the second in a row-wise log-softmax
  beside the plain biased result.  With the six regions standing as operations in the program's line, walking the line
  back from each result buffer gives these expressions of the six arguments.
-/
import proofs.«181030_j27762668601494_2_alg».proof.Proof.KLine
import proofs.«181030_j27762668601494_2_alg».proof.Proof.KRun
import proofs.«181030_j27762668601494_2_alg».proof.Proof.LibLineEval
import proofs.«181030_j27762668601494_2_alg».proof.Proof.LibTypedRef

set_option maxRecDepth 65536

noncomputable section

namespace Cert.KernelIdeal.Hand.Net

open Cert.KernelIdeal Cert.KernelIdeal.Gen Cert.KernelIdeal.Hand
open Idealize.ShloMosaic Idealize.ShloMosaic.TcCoe Idealize.ShloMosaic.StableHlo Idealize.SL.Sem

/-- Integer and float arrays of a given shape, at the extended-real instance. -/
abbrev I32 (s : Shape) := IVec s 32
abbrev F32 (s : Shape) := FVec Ideal s .f32

/-- The edge list's source row followed by the self loops 0 … 99999. -/
def src (ei : I32 S2x1600000) : I32 S1700000 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edge list's destination row followed by the self loops. -/
def dst (ei : I32 S2x1600000) : I32 S1700000 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative node index counts from the end. -/
def norm (v : I32 S1700000) : I32 S1700000 :=
  select (cmpi .slt v (broadcastInDim S1700000 ![] bcast_S_S1700000 (constantI S_ 32 0#32))) (addi v (broadcastInDim S1700000 ![] bcast_S_S1700000 (constantI S_ 32 100000#32))) v

/-- A list of node indices as a column of index vectors. -/
def idx (v : I32 S1700000) : I32 S1700000x1 := broadcastInDim S1700000x1 ![0] bcast_S1700000_S1700000x1_0 v

/-- Every node's in-degree, self loop included: ones scattered by destination and added. -/
def deg (ei : I32 S2x1600000) : F32 S100000 :=
  Host.scatterAdd scatter_S100000_S1700000x1_S1700000_n_0_0_1 (broadcastInDim S100000 ![] bcast_S_S100000 (constant S_ .f32 0x00000000#32)) (idx (dst ei)) (broadcastInDim S1700000 ![] bcast_S_S1700000 (constant S_ .f32 0x3F800000#32))

/-- The reciprocal root of the degree where it is positive, zero elsewhere. -/
def dinvPlain (ei : I32 S2x1600000) : F32 S100000 :=
  select (cmpf (F := Ideal) .ogt (deg ei) (broadcastInDim S100000 ![] bcast_S_S100000 (constant S_ .f32 0x00000000#32))) (Host.rsqrt (deg ei)) (broadcastInDim S100000 ![] bcast_S_S100000 (constant S_ .f32 0x00000000#32))

/-- Every edge's coefficient from the nodes' reciprocal roots: the product of its two endpoints'. -/
def coefOf (dv : F32 S100000) (ei : I32 S2x1600000) : F32 S1700000 :=
  mulf (Host.gather gather_S100000_S1700000x1_S1700000_n_0_n_n_0_1_1 dv (idx (norm (src ei)))) (Host.gather gather_S100000_S1700000x1_S1700000_n_0_n_n_0_1_1 dv (idx (norm (dst ei))))

/-- Every edge's source row of a [100000, 32] array, and of a [100000, 16] array. -/
def gat32 (ei : I32 S2x1600000) (h : F32 S100000x32) : F32 S1700000x32 :=
  Host.gather gather_S100000x32_S1700000x1_S1700000x32_1_0_n_n_0_1_132 h (idx (norm (src ei)))
def gat16 (ei : I32 S2x1600000) (h : F32 S100000x16) : F32 S1700000x16 :=
  Host.gather gather_S100000x16_S1700000x1_S1700000x16_1_0_n_n_0_1_116 h (idx (norm (src ei)))

/-- Edge messages added into their destination rows, from zero. -/
def agg32 (ei : I32 S2x1600000) (msg : F32 S1700000x32) : F32 S100000x32 :=
  Host.scatterAdd scatter_S100000x32_S1700000x1_S1700000x32_1_0_0_1 (broadcastInDim S100000x32 ![] bcast_S_S100000x32 (constant S_ .f32 0x00000000#32)) (idx (dst ei)) msg
def agg16 (ei : I32 S2x1600000) (msg : F32 S1700000x16) : F32 S100000x16 :=
  Host.scatterAdd scatter_S100000x16_S1700000x1_S1700000x16_1_0_0_1 (broadcastInDim S100000x16 ![] bcast_S_S100000x16 (constant S_ .f32 0x00000000#32)) (idx (dst ei)) msg

/-- The outlined `where` as its two operations leave it in the selected buffer: the selection of the condition, the value and
    the repeated scalar, with every operand moved between its buffer's own type and the tensor type the function is
    written at. -/
def whereT (P : IVec S100000 1) (Q : FVec Ideal S100000 .f32) (Z : FVec Ideal S_ .f32) : F32 S100000 :=
  (TRef.of (T := ⟨S100000, .f32⟩) main_v14).toBuf (Val := Elt Ideal)
    (select ((TRef.of (T := ⟨S100000, .i1⟩) main_v12).ofBuf (Val := Elt Ideal) P) ((TRef.of (T := ⟨S100000, .f32⟩) main_v13).ofBuf (Val := Elt Ideal) Q)
      ((TRef.of (T := ⟨S100000, .f32⟩) main_call0_v0).ofBuf (Val := Elt Ideal) ((TRef.of (T := ⟨S100000, .f32⟩) main_call0_v0).toBuf (Val := Elt Ideal)
        (broadcastInDim S100000 ![] bcast_S_S100000 ((TRef.of (T := ⟨S_, .f32⟩) main_cst_2).ofBuf (Val := Elt Ideal) Z)))))

/-- The moves change nothing: it is the plain selection. -/
theorem whereT_eq (P : IVec S100000 1) (Q : FVec Ideal S100000 .f32) (Z : FVec Ideal S_ .f32) :
    whereT P Q Z = select P Q (broadcastInDim S100000 ![] bcast_S_S100000 Z) := by
  unfold whereT
  rw [Cert.TypedRef.ofBuf_toBuf]
  refine Cert.TypedRef.toBuf_eq _ _ _ (heq_of_eq ?_)
  congr 1 <;> exact Cert.TypedRef.ofBuf_eq _ _ _ HEq.rfl

/-- The reciprocal roots as this call leaves them. -/
def dinv (ei : I32 S2x1600000) : F32 S100000 :=
  whereT (cmpf (F := Ideal) .ogt (deg ei) (broadcastInDim S100000 ![] bcast_S_S100000 (constant S_ .f32 0x00000000#32))) (Host.rsqrt (deg ei)) (constant S_ .f32 0x00000000#32)

theorem dinv_plain (ei : I32 S2x1600000) : dinv ei = dinvPlain ei := by
  unfold dinv dinvPlain
  exact whereT_eq _ _ _

/-- The two layers, in the kernel's spelling, from the coefficient column and the two bias rows as the regions
    take them. -/
def layers (cc : F32 S1700000x1) (br1 : F32 S1x32) (br2 : F32 S1x16) (x : F32 S100000x32) (ei : I32 S2x1600000)
    (W1 : F32 S32x32) (W2 : F32 S32x16) : F32 S100000x16 :=
  R5.Gh (agg16 ei (R4.G (gat16 ei (R3.G dW2 (R2.G (agg32 ei (R1.G (gat32 ei (R0.G dW1 x W1)) cc)) br1) W2)) cc)) br2

/-- The first result: the second layer's biased aggregate.  The kernel reshapes the coefficients to a column and each
    bias to a row. -/
def out0Of (dv : F32 S100000) (x : F32 S100000x32) (ei : I32 S2x1600000) (W1 : F32 S32x32) (b1 : F32 S32) (W2 : F32 S32x16) (b2 : F32 S16) : F32 S100000x16 :=
  layers (shapeCast S1700000x1 (coefOf dv ei) shapeCasts_S1700000_S1700000x1) (shapeCast S1x32 b1 shapeCasts_S32_S1x32)
    (shapeCast S1x16 b2 shapeCasts_S16_S1x16) x ei W1 W2

def out0 (x : F32 S100000x32) (ei : I32 S2x1600000) (W1 : F32 S32x32) (b1 : F32 S32) (W2 : F32 S32x16) (b2 : F32 S16) : F32 S100000x16 :=
  out0Of (dinv ei) x ei W1 b1 W2 b2

/-- The second result: its row-wise log-softmax. -/
def out1 (x : F32 S100000x32) (ei : I32 S2x1600000) (W1 : F32 S32x32) (b1 : F32 S32) (W2 : F32 S32x16) (b2 : F32 S16) : F32 S100000x16 :=
  R5.lsmR (out0 x ei W1 b1 W2 b2)

end Cert.KernelIdeal.Hand.Net

namespace Cert.KernelIdeal.Hand

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

set_option maxHeartbeats 40000000 in
/-- The first result buffer at the last boundary: the line walked back from it. -/
theorem last_out0 (c : Dev nD) : W13 m ρ c (Proc.devRef .tc main_v58_0)
    = Net.out0 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [W13_eq]
  simp only [kline, hostOps0, hostOps0_1, hostOps0_2, hostOps1, hostOps2, hostOps4, hostOps5, List.cons_append, List.nil_append]
  eval_line
  rfl

/-- The second result buffer at the last boundary is the log-softmax of the first: the last region's two operations
    read the same two buffers, and neither writes what the other reads. -/
theorem last_out1_of_out0 (c : Dev nD) :
    W13 m ρ c (Proc.devRef .tc main_v58_1) = R5.lsmR (W13 m ρ c (Proc.devRef .tc main_v58_0)) := by
  rw [W13_eq5]
  generalize W12 m ρ c = Y
  eval_line

theorem last_out1 (c : Dev nD) : W13 m ρ c (Proc.devRef .tc main_v58_1)
    = Net.out1 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [last_out1_of_out0, last_out0]
  rfl

/-- The kernel's run with its two results read: every weakly fair execution terminates without a fault, the two result
    arrays end at the two expressions of the arguments, and the arguments end as launched. -/
theorem run_values : θ_run defs (onTc (τ := τ) (main (F := Ideal))) ⟨m, fun _ => 0, ρ⟩ (fun r => ∀ c : Dev nD,
      r.2.mem ((c.tc : Thread nD τ).loc main_v58_0)
        = Net.out0 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_v58_1)
        = Net.out1 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (last_out0 m ρ c), (h c).2.1.trans (last_out1 m ρ c), (h c).2.2⟩)
    (run_last m ρ)

end Cert.KernelIdeal.Hand

end
-- ==== Proof.RefValue.lean ====
/-
  What the reference's two result arrays end holding.

  The reference is the same two graph-convolution layers written over whole arrays: from the edge list the source and
  destination of every edge (the given edges followed by a self loop per node), each node's degree and each edge's
  coefficient; a layer multiplies the node features by a weight, gathers every edge's source row, scales it by the
  edge's coefficient repeated along the features, adds the scaled rows into their destination rows, and adds the bias
  repeated over the rows; the first layer ends in tanh, and the second is returned both as it is and through a
  row-wise log-softmax.  Walking the program's line of operations back from each result buffer gives these
  expressions of the six arguments; the second result is read in two halves, the log-softmax's operations over
  whatever the line before them leaves in the first result's buffer.
-/
import proofs.«181030_j27762668601494_2_alg».proof.Proof.RefRun
import proofs.«181030_j27762668601494_2_alg».proof.Proof.LibLineEval
import proofs.«181030_j27762668601494_2_alg».proof.Proof.LibRegionOp
import proofs.«181030_j27762668601494_2_alg».proof.Proof.LibTypedRef
import Idealize.ShloMosaic.PureOps.Ideal.Laws
import Idealize.ShloMosaic.Lib.IdealHost

set_option maxRecDepth 65536

noncomputable section

namespace Cert.ReferenceIdeal.Hand.Net

open Cert.ReferenceIdeal Cert.ReferenceIdeal.Gen
open Idealize.ShloMosaic Idealize.ShloMosaic.TcCoe Idealize.ShloMosaic.StableHlo Idealize.SL.Sem

/-- Integer and float arrays of a given shape, at the extended-real instance. -/
abbrev I32 (s : Shape) := IVec s 32
abbrev F32 (s : Shape) := FVec Ideal s .f32

/-- The edge list's source row followed by the self loops 0 … 99999. -/
def src (ei : I32 S2x1600000) : I32 S1700000 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edge list's destination row followed by the self loops. -/
def dst (ei : I32 S2x1600000) : I32 S1700000 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative node index counts from the end. -/
def norm (v : I32 S1700000) : I32 S1700000 :=
  select (cmpi .slt v (broadcastInDim S1700000 ![] bcast_S_S1700000 (constantI S_ 32 0#32))) (addi v (broadcastInDim S1700000 ![] bcast_S_S1700000 (constantI S_ 32 100000#32))) v

/-- A list of node indices as a column of index vectors. -/
def idx (v : I32 S1700000) : I32 S1700000x1 := broadcastInDim S1700000x1 ![0] bcast_S1700000_S1700000x1_0 v

/-- Every node's in-degree, self loop included: ones scattered by destination and added. -/
def deg (ei : I32 S2x1600000) : F32 S100000 :=
  Host.scatterAdd scatter_S100000_S1700000x1_S1700000_n_0_0_1 (broadcastInDim S100000 ![] bcast_S_S100000 (constant S_ .f32 0x00000000#32)) (idx (dst ei)) (broadcastInDim S1700000 ![] bcast_S_S1700000 (constant S_ .f32 0x3F800000#32))

/-- The reciprocal root of the degree where it is positive, zero elsewhere. -/
def dinvPlain (ei : I32 S2x1600000) : F32 S100000 :=
  select (cmpf (F := Ideal) .ogt (deg ei) (broadcastInDim S100000 ![] bcast_S_S100000 (constant S_ .f32 0x00000000#32))) (Host.rsqrt (deg ei)) (broadcastInDim S100000 ![] bcast_S_S100000 (constant S_ .f32 0x00000000#32))

/-- Every edge's coefficient from the nodes' reciprocal roots: the product of its two endpoints'. -/
def coefOf (dv : F32 S100000) (ei : I32 S2x1600000) : F32 S1700000 :=
  mulf (Host.gather gather_S100000_S1700000x1_S1700000_n_0_n_n_0_1_1 dv (idx (norm (src ei)))) (Host.gather gather_S100000_S1700000x1_S1700000_n_0_n_n_0_1_1 dv (idx (norm (dst ei))))

/-- Every edge's source row of a [100000, 32] array, and of a [100000, 16] array. -/
def gat32 (ei : I32 S2x1600000) (h : F32 S100000x32) : F32 S1700000x32 :=
  Host.gather gather_S100000x32_S1700000x1_S1700000x32_1_0_n_n_0_1_132 h (idx (norm (src ei)))
def gat16 (ei : I32 S2x1600000) (h : F32 S100000x16) : F32 S1700000x16 :=
  Host.gather gather_S100000x16_S1700000x1_S1700000x16_1_0_n_n_0_1_116 h (idx (norm (src ei)))

/-- Edge messages added into their destination rows, from zero. -/
def agg32 (ei : I32 S2x1600000) (msg : F32 S1700000x32) : F32 S100000x32 :=
  Host.scatterAdd scatter_S100000x32_S1700000x1_S1700000x32_1_0_0_1 (broadcastInDim S100000x32 ![] bcast_S_S100000x32 (constant S_ .f32 0x00000000#32)) (idx (dst ei)) msg
def agg16 (ei : I32 S2x1600000) (msg : F32 S1700000x16) : F32 S100000x16 :=
  Host.scatterAdd scatter_S100000x16_S1700000x1_S1700000x16_1_0_0_1 (broadcastInDim S100000x16 ![] bcast_S_S100000x16 (constant S_ .f32 0x00000000#32)) (idx (dst ei)) msg

/-- The outlined `where` as its two operations leave it in the selected buffer: the selection of the condition, the value and
    the repeated scalar, with every operand moved between its buffer's own type and the tensor type the function is
    written at. -/
def whereT0 (P : IVec S100000 1) (Q : FVec Ideal S100000 .f32) (Z : FVec Ideal S_ .f32) : F32 S100000 :=
  (TRef.of (T := ⟨S100000, .f32⟩) main_v15).toBuf (Val := Elt Ideal)
    (select ((TRef.of (T := ⟨S100000, .i1⟩) main_v13).ofBuf (Val := Elt Ideal) P) ((TRef.of (T := ⟨S100000, .f32⟩) main_v14).ofBuf (Val := Elt Ideal) Q)
      ((TRef.of (T := ⟨S100000, .f32⟩) main_call0_v0).ofBuf (Val := Elt Ideal) ((TRef.of (T := ⟨S100000, .f32⟩) main_call0_v0).toBuf (Val := Elt Ideal)
        (broadcastInDim S100000 ![] bcast_S_S100000 ((TRef.of (T := ⟨S_, .f32⟩) main_cst_2).ofBuf (Val := Elt Ideal) Z)))))

/-- The moves change nothing: it is the plain selection. -/
theorem whereT0_eq (P : IVec S100000 1) (Q : FVec Ideal S100000 .f32) (Z : FVec Ideal S_ .f32) :
    whereT0 P Q Z = select P Q (broadcastInDim S100000 ![] bcast_S_S100000 Z) := by
  unfold whereT0
  rw [Cert.TypedRef.ofBuf_toBuf]
  refine Cert.TypedRef.toBuf_eq _ _ _ (heq_of_eq ?_)
  congr 1 <;> exact Cert.TypedRef.ofBuf_eq _ _ _ HEq.rfl

/-- The reciprocal roots as this call leaves them. -/
def dinv0 (ei : I32 S2x1600000) : F32 S100000 :=
  whereT0 (cmpf (F := Ideal) .ogt (deg ei) (broadcastInDim S100000 ![] bcast_S_S100000 (constant S_ .f32 0x00000000#32))) (Host.rsqrt (deg ei)) (constant S_ .f32 0x00000000#32)

theorem dinv0_plain (ei : I32 S2x1600000) : dinv0 ei = dinvPlain ei := by
  unfold dinv0 dinvPlain
  exact whereT0_eq _ _ _

/-- The outlined `where` as its two operations leave it in the selected buffer: the selection of the condition, the value and
    the repeated scalar, with every operand moved between its buffer's own type and the tensor type the function is
    written at. -/
def whereT1 (P : IVec S100000 1) (Q : FVec Ideal S100000 .f32) (Z : FVec Ideal S_ .f32) : F32 S100000 :=
  (TRef.of (T := ⟨S100000, .f32⟩) main_v56).toBuf (Val := Elt Ideal)
    (select ((TRef.of (T := ⟨S100000, .i1⟩) main_v54).ofBuf (Val := Elt Ideal) P) ((TRef.of (T := ⟨S100000, .f32⟩) main_v55).ofBuf (Val := Elt Ideal) Q)
      ((TRef.of (T := ⟨S100000, .f32⟩) main_call1_v0).ofBuf (Val := Elt Ideal) ((TRef.of (T := ⟨S100000, .f32⟩) main_call1_v0).toBuf (Val := Elt Ideal)
        (broadcastInDim S100000 ![] bcast_S_S100000 ((TRef.of (T := ⟨S_, .f32⟩) main_cst_12).ofBuf (Val := Elt Ideal) Z)))))

/-- The moves change nothing: it is the plain selection. -/
theorem whereT1_eq (P : IVec S100000 1) (Q : FVec Ideal S100000 .f32) (Z : FVec Ideal S_ .f32) :
    whereT1 P Q Z = select P Q (broadcastInDim S100000 ![] bcast_S_S100000 Z) := by
  unfold whereT1
  rw [Cert.TypedRef.ofBuf_toBuf]
  refine Cert.TypedRef.toBuf_eq _ _ _ (heq_of_eq ?_)
  congr 1 <;> exact Cert.TypedRef.ofBuf_eq _ _ _ HEq.rfl

/-- The reciprocal roots as this call leaves them. -/
def dinv1 (ei : I32 S2x1600000) : F32 S100000 :=
  whereT1 (cmpf (F := Ideal) .ogt (deg ei) (broadcastInDim S100000 ![] bcast_S_S100000 (constant S_ .f32 0x00000000#32))) (Host.rsqrt (deg ei)) (constant S_ .f32 0x00000000#32)

theorem dinv1_plain (ei : I32 S2x1600000) : dinv1 ei = dinvPlain ei := by
  unfold dinv1 dinvPlain
  exact whereT1_eq _ _ _

/-- The first result: the second layer's biased aggregate. -/
def out0Of (dv0 dv1 : F32 S100000) (x : F32 S100000x32) (ei : I32 S2x1600000) (W1 : F32 S32x32) (b1 : F32 S32) (W2 : F32 S32x16) (b2 : F32 S16) : F32 S100000x16 :=
  addf (agg16 ei (mulf (gat16 ei (Host.dotGeneral dot_S100000x32_S32x16_S100000x16_1_0_0_1_n_n none (Host.tanh (addf (agg32 ei (mulf (gat32 ei (Host.dotGeneral dot_S100000x32_S32x32_S100000x32_1_0_0_1_n_n none x W1)) (broadcastInDim S1700000x32 ![0, 1] bcast_S1700000x1_S1700000x32_0_1 (broadcastInDim S1700000x1 ![0] bcast_S1700000_S1700000x1_0 (coefOf dv0 ei))))) (broadcastInDim S100000x32 ![0, 1] bcast_S1x32_S100000x32_0_1 (broadcastInDim S1x32 ![1] bcast_S32_S1x32_1 b1)))) W2)) (broadcastInDim S1700000x16 ![0, 1] bcast_S1700000x1_S1700000x16_0_1 (broadcastInDim S1700000x1 ![0] bcast_S1700000_S1700000x1_0 (coefOf dv1 ei))))) (broadcastInDim S100000x16 ![0, 1] bcast_S1x16_S100000x16_0_1 (broadcastInDim S1x16 ![1] bcast_S16_S1x16_1 b2))

/-- The first result: the two layers, each with the reciprocal roots as its own `where` call leaves them. -/
def out0 (x : F32 S100000x32) (ei : I32 S2x1600000) (W1 : F32 S32x32) (b1 : F32 S32) (W2 : F32 S32x16) (b2 : F32 S16) : F32 S100000x16 :=
  out0Of (dinv0 ei) (dinv1 ei) x ei W1 b1 W2 b2

/-- Every row with its maximum subtracted. -/
def shift (h : F32 S100000x16) : F32 S100000x16 :=
  subf h (broadcastInDim S100000x16 ![0, 1] bcast_S100000x1_S100000x16_0_1 (broadcastInDim S100000x1 ![0] bcast_S100000_S100000x1_0 (maximumf (broadcastInDim S100000 ![] bcast_S_S100000 (constant S_ .f32 0xFF800000#32)) (Host.reduce FloatOps.maximumf h (constant S_ .f32 0xFF800000#32) reducesTo_S100000x16_S100000_d1 h_S_))))

/-- The row-wise log-softmax. -/
def lsm (h : F32 S100000x16) : F32 S100000x16 :=
  subf (shift h) (broadcastInDim S100000x16 ![0, 1] bcast_S100000x1_S100000x16_0_1 (Host.log (broadcastInDim S100000x1 ![0] bcast_S100000_S100000x1_0 (Host.reduceAdd (Host.exp (shift h)) (constant S_ .f32 0x00000000#32) reducesTo_S100000x16_S100000_d1 h_S_))))

end Cert.ReferenceIdeal.Hand.Net

namespace Cert.ReferenceIdeal.Hand

open Cert.ReferenceIdeal Cert.ReferenceIdeal.Gen Cert.ReferenceIdeal.ValueP
open Idealize.ShloMosaic Idealize.ShloMosaic.TcCoe Idealize.ShloMosaic.StableHlo Idealize.SL.Sem

set_option maxHeartbeats 40000000 in
/-- The first result buffer after the whole line: the line walked back from it. -/
theorem line_out0 (V : Valuation τ sig (Elt Ideal)) :
    after (ops (F := Ideal)) V (Proc.devRef .tc main_v87)
      = Net.out0 (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  simp only [ops]
  eval_line
  rfl

set_option maxHeartbeats 40000000 in
/-- The second result buffer is the log-softmax of the first: the line's last fifteen operations, over whatever the
    first 112 leave, read the first result's buffer only and do not write it. -/
theorem line_out1_of_out0 (V : Valuation τ sig (Elt Ideal)) :
    after (ops (F := Ideal)) V (Proc.devRef .tc main_v88) = Net.lsm (after (ops (F := Ideal)) V (Proc.devRef .tc main_v87)) := by
  have hsplit : after (ops (F := Ideal)) V = after ((ops (F := Ideal)).drop 112) (after ((ops (F := Ideal)).take 112) V) := by
    rw [← Cert.RegionOp.after_append, List.take_append_drop]
  rw [hsplit]
  generalize after ((ops (F := Ideal)).take 112) V = Y
  simp only [ops]
  eval_line
  simp only [Cert.TypedRef.ofBuf_toBuf]
  refine Cert.TypedRef.toBuf_eq _ _ _ (heq_of_eq ?_)
  have e : (TRef.of (T := ⟨S100000x16, .f32⟩) main_v87).ofBuf (Y (Proc.devRef .tc main_v87)) = (Y (Proc.devRef .tc main_v87) : Net.F32 S100000x16) :=
    Cert.TypedRef.ofBuf_eq _ _ _ HEq.rfl
  rw [e]
  rfl

/-! The six argument buffers are written by no operation of the line. -/

set_option maxHeartbeats 40000000 in
theorem line_arg0 (V : Valuation τ sig (Elt Ideal)) :
    after (ops (F := Ideal)) V (Proc.devRef .tc main_arg0) = V (Proc.devRef .tc main_arg0) := by
  simp only [ops]
  eval_line

set_option maxHeartbeats 40000000 in
theorem line_arg1 (V : Valuation τ sig (Elt Ideal)) :
    after (ops (F := Ideal)) V (Proc.devRef .tc main_arg1) = V (Proc.devRef .tc main_arg1) := by
  simp only [ops]
  eval_line

set_option maxHeartbeats 40000000 in
theorem line_arg2 (V : Valuation τ sig (Elt Ideal)) :
    after (ops (F := Ideal)) V (Proc.devRef .tc main_arg2) = V (Proc.devRef .tc main_arg2) := by
  simp only [ops]
  eval_line

set_option maxHeartbeats 40000000 in
theorem line_arg3 (V : Valuation τ sig (Elt Ideal)) :
    after (ops (F := Ideal)) V (Proc.devRef .tc main_arg3) = V (Proc.devRef .tc main_arg3) := by
  simp only [ops]
  eval_line

set_option maxHeartbeats 40000000 in
theorem line_arg4 (V : Valuation τ sig (Elt Ideal)) :
    after (ops (F := Ideal)) V (Proc.devRef .tc main_arg4) = V (Proc.devRef .tc main_arg4) := by
  simp only [ops]
  eval_line

set_option maxHeartbeats 40000000 in
theorem line_arg5 (V : Valuation τ sig (Elt Ideal)) :
    after (ops (F := Ideal)) V (Proc.devRef .tc main_arg5) = V (Proc.devRef .tc main_arg5) := by
  simp only [ops]
  eval_line

variable (m : (ℓ : Loc nD τ sig) → Buf (Elt Ideal) ℓ) (ρ : Dev nD → PrngReg)

/-- The reference's run with its two results read: every weakly fair execution terminates without a fault, the two
    result arrays end at the two expressions of the arguments, and the arguments end as launched. -/
theorem run_values : θ_run defs (onTc (τ := τ) (main (F := Ideal))) ⟨m, fun _ => 0, ρ⟩ (fun r => ∀ c : Dev nD,
      r.2.mem ((c.tc : Thread nD τ).loc main_v87)
        = Net.out0 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_v88)
        = Net.lsm (Net.out0 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c main_v87).trans (line_out0 (launchContents m c)),
     (h c main_v88).trans ((line_out1_of_out0 (launchContents m c)).trans (congrArg Net.lsm (line_out0 (launchContents m c)))),
     (h c main_arg0).trans (line_arg0 (launchContents m c)),
     (h c main_arg1).trans (line_arg1 (launchContents m c)),
     (h c main_arg2).trans (line_arg2 (launchContents m c)),
     (h c main_arg3).trans (line_arg3 (launchContents m c)),
     (h c main_arg4).trans (line_arg4 (launchContents m c)),
     (h c main_arg5).trans (line_arg5 (launchContents m c))⟩)
    (ValueP.run (F := Ideal) m ρ)

end Cert.ReferenceIdeal.Hand

end
-- ==== Proof.LibRowView.lean ====
/-
  A length-n vector viewed as a [1, n] row, read at one index.

  Reshaping a vector of n entries into one row of n entries moves nothing: entry (0, j) of the row is entry j of
  the vector, since both sit at position j of the row-major order.
-/
import Idealize.ShloMosaic.Lib.ValueIdx
import Idealize.ShloMosaic.Lib.Pipeline.Value

noncomputable section

namespace Cert.RowView

open Idealize.ShloMosaic Idealize.ShloMosaic.ValueIdx

variable {α : Type} {n : Nat}

/-- A length-`n` vector viewed as a `[1, n]` row reads, at (u, j), the vector at j. -/
theorem row_apply (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_one, Shape.rowMajor_val_two]
    show j.val = u.val * n + j.val
    rw [hu, Nat.zero_mul, Nat.zero_add])

end Cert.RowView

end
-- ==== Proof.LibRowAsBroadcast.lean ====
/-
  A vector reshaped to one row is the vector broadcast to one row.

  A kernel's caller hands a length-n bias to the kernel as a [1, n] row by a reshape; a host program that adds the
  same bias to every row of an array first lays it along the second axis of a [1, n] row by a broadcast.  Both rows
  hold entry j of the vector at (0, j): they are the same array.
-/
import Idealize.ShloMosaic.Lib.ValueIdx
import Idealize.ShloMosaic.Lib.Pipeline.Value
import proofs.«181030_j27762668601494_2_alg».proof.Proof.LibRowView
import proofs.«181030_j27762668601494_2_alg».proof.Proof.LibHostRowOps

noncomputable section

namespace Cert.RowAsBroadcast

open Idealize.ShloMosaic Idealize.ShloMosaic.ValueIdx

variable {α : Type} {n : Nat}

/-- The reshape of a length-`n` vector to a `[1, n]` row is its broadcast along the row's second axis. -/
theorem row_eq (x : (⟨1, ![n]⟩ : Shape).Idx → α) (hs : (⟨1, ![n]⟩ : Shape).ShapeCasts ⟨2, ![1, n]⟩)
    (hb : (⟨1, ![n]⟩ : Shape).BroadcastsInDim ⟨2, ![1, n]⟩ ![1]) :
    shapeCast ⟨2, ![1, n]⟩ x hs = broadcastInDim ⟨2, ![1, n]⟩ ![1] hb x :=
  funext fun j => by
    obtain ⟨u, k, rfl⟩ : ∃ (u : Fin 1) (k : Fin n), j = ix2 u k := ⟨j 0, j 1, eq_ix2 j⟩
    rw [Cert.RowView.row_apply, Cert.HostRowOps.vecToRow_apply]

end Cert.RowAsBroadcast

end
-- ==== Proof.LibColAsBroadcast.lean ====
/-
  A vector as a one-column array: a reshape is a broadcast.

  A length-a vector can be laid out as an [a, 1] column in two ways: reshaped (`x.reshape(-1, 1)`, a `shape_cast` or a host
  `reshape`), or broadcast along the column's first axis (`x[:, None]`, the host's `broadcast_in_dim` with dims = [0]).
  Both read, at (i, 0), the vector at i, so they are the same array.  The companion of the row statement (a vector
  reshaped to a [1, n] row is its broadcast along the row's second axis).
-/
import Idealize.ShloMosaic.Lib.ValueIdx
import Idealize.ShloMosaic.Lib.Pipeline.Value
import proofs.«181030_j27762668601494_2_alg».proof.Proof.LibRowOps
import proofs.«181030_j27762668601494_2_alg».proof.Proof.LibHostRowOps

noncomputable section

namespace Cert.ColAsBroadcast

open Idealize.ShloMosaic Idealize.ShloMosaic.ValueIdx

variable {α : Type} {a : Nat}

/-- The reshape of a length-`a` vector to an `[a, 1]` column is its broadcast along the column's first axis. -/
theorem col_eq (x : (⟨1, ![a]⟩ : Shape).Idx → α) (hs : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x hs = broadcastInDim ⟨2, ![a, 1]⟩ ![0] hb x :=
  funext fun j => by
    obtain ⟨i, u, rfl⟩ : ∃ (i : Fin a) (u : Fin 1), j = ix2 i u := ⟨j 0, j 1, eq_ix2 j⟩
    rw [Cert.RowOps.column_apply, Cert.HostRowOps.vecToCol_apply]

end Cert.ColAsBroadcast

end
-- ==== Proof.Bridge.lean ====
/-
  The kernel's two results and the reference's are the same functions of the arguments.

  Both programs apply the same graph operations (self loops, degrees, coefficients, gathers, scatter-adds) in the same
  order; they differ in how the dense steps are spelled.  Each region's whole-array function was stated in the host's
  spelling, so what is left is layout: the kernel reshapes each bias to a one-row array where the reference broadcasts
  it along the second axis, and reshapes the coefficients to a one-column array where the reference broadcasts them
  along the first.  A reshape of a vector to a row or to a column and the corresponding broadcast read the same
  element at every index, so they are equal, and with them the two expressions coincide term by term.
-/
import proofs.«181030_j27762668601494_2_alg».proof.Proof.KValue
import proofs.«181030_j27762668601494_2_alg».proof.Proof.RefValue
import proofs.«181030_j27762668601494_2_alg».proof.Proof.LibRowAsBroadcast
import proofs.«181030_j27762668601494_2_alg».proof.Proof.LibColAsBroadcast

set_option maxRecDepth 65536

noncomputable section

namespace Cert.Bridge

open Idealize.ShloMosaic Idealize.ShloMosaic.ValueIdx

open Cert.KernelIdeal in
theorem hcol : S1700000.BroadcastsInDim S1700000x1 ![0] := by decide
open Cert.KernelIdeal in
theorem hrow32 : S32.BroadcastsInDim S1x32 ![1] := by decide
open Cert.KernelIdeal in
theorem hrow16 : S16.BroadcastsInDim S1x16 ![1] := by decide

/-- With the same reciprocal roots in both layers, the kernel's expression of the first result is the reference's. -/
theorem out0Of_eq (dv : Cert.KernelIdeal.Hand.Net.F32 Cert.KernelIdeal.S100000) (x : Cert.KernelIdeal.Hand.Net.F32 Cert.KernelIdeal.S100000x32) (ei : Cert.KernelIdeal.Hand.Net.I32 Cert.KernelIdeal.S2x1600000)
    (W1 : Cert.KernelIdeal.Hand.Net.F32 Cert.KernelIdeal.S32x32) (b1 : Cert.KernelIdeal.Hand.Net.F32 Cert.KernelIdeal.S32)
    (W2 : Cert.KernelIdeal.Hand.Net.F32 Cert.KernelIdeal.S32x16) (b2 : Cert.KernelIdeal.Hand.Net.F32 Cert.KernelIdeal.S16) :
    Cert.KernelIdeal.Hand.Net.out0Of dv x ei W1 b1 W2 b2 = Cert.ReferenceIdeal.Hand.Net.out0Of dv dv x ei W1 b1 W2 b2 := by
  unfold Cert.KernelIdeal.Hand.Net.out0Of
  rw [Cert.ColAsBroadcast.col_eq _ _ hcol, Cert.RowAsBroadcast.row_eq _ _ hrow32, Cert.RowAsBroadcast.row_eq _ _ hrow16]
  rfl

/-- The plain reciprocal roots are the same expression in both programs. -/
theorem dinvPlain_eq (ei : Cert.KernelIdeal.Hand.Net.I32 Cert.KernelIdeal.S2x1600000) : Cert.KernelIdeal.Hand.Net.dinvPlain ei = Cert.ReferenceIdeal.Hand.Net.dinvPlain ei := rfl

/-- The first results agree: each `where` call leaves the plain reciprocal roots. -/
theorem out0_eq (x : Cert.KernelIdeal.Hand.Net.F32 Cert.KernelIdeal.S100000x32) (ei : Cert.KernelIdeal.Hand.Net.I32 Cert.KernelIdeal.S2x1600000)
    (W1 : Cert.KernelIdeal.Hand.Net.F32 Cert.KernelIdeal.S32x32) (b1 : Cert.KernelIdeal.Hand.Net.F32 Cert.KernelIdeal.S32)
    (W2 : Cert.KernelIdeal.Hand.Net.F32 Cert.KernelIdeal.S32x16) (b2 : Cert.KernelIdeal.Hand.Net.F32 Cert.KernelIdeal.S16) :
    Cert.KernelIdeal.Hand.Net.out0 x ei W1 b1 W2 b2 = Cert.ReferenceIdeal.Hand.Net.out0 x ei W1 b1 W2 b2 := by
  unfold Cert.KernelIdeal.Hand.Net.out0 Cert.ReferenceIdeal.Hand.Net.out0
  rw [Cert.KernelIdeal.Hand.Net.dinv_plain, Cert.ReferenceIdeal.Hand.Net.dinv0_plain, Cert.ReferenceIdeal.Hand.Net.dinv1_plain, dinvPlain_eq]
  exact out0Of_eq _ x ei W1 b1 W2 b2

/-- The kernel's log-softmax expression is the reference's. -/
theorem lsm_eq (h : Cert.KernelIdeal.Hand.Net.F32 Cert.KernelIdeal.S100000x16) :
    Cert.KernelIdeal.Hand.R5.lsmR h = Cert.ReferenceIdeal.Hand.Net.lsm h := rfl

/-- The second results agree. -/
theorem out1_eq (x : Cert.KernelIdeal.Hand.Net.F32 Cert.KernelIdeal.S100000x32) (ei : Cert.KernelIdeal.Hand.Net.I32 Cert.KernelIdeal.S2x1600000)
    (W1 : Cert.KernelIdeal.Hand.Net.F32 Cert.KernelIdeal.S32x32) (b1 : Cert.KernelIdeal.Hand.Net.F32 Cert.KernelIdeal.S32)
    (W2 : Cert.KernelIdeal.Hand.Net.F32 Cert.KernelIdeal.S32x16) (b2 : Cert.KernelIdeal.Hand.Net.F32 Cert.KernelIdeal.S16) :
    Cert.KernelIdeal.Hand.Net.out1 x ei W1 b1 W2 b2 = Cert.ReferenceIdeal.Hand.Net.lsm (Cert.ReferenceIdeal.Hand.Net.out0 x ei W1 b1 W2 b2) := by
  unfold Cert.KernelIdeal.Hand.Net.out1
  rw [out0_eq, lsm_eq]

end Cert.Bridge

end
-- ==== Proof.lean ====
/-
  The certificate of a two-layer graph convolution network: a tiled kernel program against a whole-array reference.

  The network takes node features x : [100000, 32], an edge list [2, 1600000] and two dense layers (W1, b1), (W2, b2).
  With a self loop added to every node, deg is the number of edges into a node and every edge (s → d) carries the
  coefficient deg(s)^(-1/2) · deg(d)^(-1/2).  A layer sends h to  b + Σ_{edges s → d} coefficient · (h · W)(s, ·)  in
  row d; the first layer ends in tanh, and the second is returned as it is and through a row-wise log-softmax.

  The kernel program computes the two products h · W, the edge-wise scaling, bias + tanh and bias + log-softmax in six
  pipelined regions over row blocks, and leaves the gathers and scatter-adds to host operations between them; the
  reference applies host operations to whole arrays throughout.  On the extended reals a block of rows of a product,
  of a scaling, or of a row-wise expression is the same rows of the whole-array expression, rounding an operand to bf16
  changes nothing, a maximum taken once more with −∞ changes nothing, and a vector reshaped to a row or a column is its
  broadcast.  So each region acts on the buffer contents as the reference's host operations do, the remaining
  operations are the same on both sides, and the two programs end with equal results, index by index.  Nothing here
  uses that the inputs are finite.

  The three frames: the two kernel programs' are the generated frame certificates; the reference's is its run with
  the results dropped.  The ideal pass rewrote nothing, so there is nothing to preserve.
-/
import proofs.«181030_j27762668601494_2_alg».proof.Defs
import proofs.«181030_j27762668601494_2_alg».proof.Proof.Gen.Kernel
import proofs.«181030_j27762668601494_2_alg».proof.Proof.Gen.Kernel.Frame
import proofs.«181030_j27762668601494_2_alg».proof.Proof.Gen.KernelIdeal
import proofs.«181030_j27762668601494_2_alg».proof.Proof.Gen.KernelIdeal.Frame
import proofs.«181030_j27762668601494_2_alg».proof.Proof.Gen.ReferenceIdeal
import proofs.«181030_j27762668601494_2_alg».proof.Proof.Gen.Pre_finite_inputs
import proofs.«181030_j27762668601494_2_alg».proof.Proof.KValue
import proofs.«181030_j27762668601494_2_alg».proof.Proof.RefValue
import proofs.«181030_j27762668601494_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Hand.run_values m ρ)

/-- From memories agreeing on the six arguments both idealized programs run, and their results are equal: the kernel's
    two result arrays end at its two expressions of the arguments, the reference's at its two, and the expressions
    coincide. -/
theorem algebraic : Cert.algebraic_KernelIdeal_ReferenceIdeal := by
  intro m ρ m' ρ' _ hagree
  refine ⟨_, _, Cert.KernelIdeal.Hand.run_values m ρ, ?_⟩
  refine (θ_run Cert.ReferenceIdeal.defs _ _).mono (fun _ h c => ?_) (Cert.ReferenceIdeal.Hand.run_values m' ρ')
  obtain ⟨a0, a1, a2, a3, a4, a5⟩ := hagree c
  refine ⟨(h c).1.trans ?_, (h c).2.1.trans ?_, (h c).2.2⟩
  · rw [a0, a1, a2, a3, a4, a5]
    exact (Cert.Bridge.out0_eq _ _ _ _ _ _).symm
  · rw [a0, a1, a2, a3, a4, a5]
    exact (Cert.Bridge.out1_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
